-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x225x256 : Shape := ⟨3, ![512, 225, 256]⟩
abbrev S512x256x15x15 : Shape := ⟨4, ![512, 256, 15, 15]⟩
abbrev S_ : Shape := ⟨0, ![]⟩

class Facts : Prop where
  bcast_S_S512x225x256 : S_.BroadcastsInDim S512x225x256 (![] : Fin 0 → Fin S512x225x256.rank)
  reducesTo_S512x225x256_S_d0_1_2 : S512x225x256.ReducesTo [0, 1, 2] S_
  h_S_ : 0 < S_.numel
  bcast_S_S512x256x15x15 : S_.BroadcastsInDim S512x256x15x15 (![] : Fin 0 → Fin S512x256x15x15.rank)
  reducesTo_S512x256x15x15_S_d0_1_2_3 : S512x256x15x15.ReducesTo [0, 1, 2, 3] S_

variable [Facts]

def fn_part1 {F : FTy → Type} [FloatOps F] (main_v13 : IVec S_ 1) (main_v16 : IVec S512x256x15x15 1) : IVec S_ 1 :=
  let main_c_5 : IVec S_ 1 := constantI S_ 1 1#1
  let main_v17 : IVec S_ 1 := (fun x v => Host.reduce IntOp.andi x v reducesTo_S512x256x15x15_S_d0_1_2_3 h_S_) main_v16 main_c_5
  let main_v18 : IVec S_ 1 := andi main_v13 main_v17
  main_v18

def fn {F : FTy → Type} [FloatOps F] (main_arg0 : FVec F S512x225x256 .f32) (main_arg1 : FVec F S512x225x256 .f32) (main_arg2 : FVec F S512x256x15x15 .f32) (main_arg3 : FVec F S512x256x15x15 .f32) : IVec S_ 1 :=
  let main_v0 : FVec F S512x225x256 .f32 := Host.absf main_arg0
  let main_cst : FVec F S_ .f32 := constant S_ .f32 0x7F800000#32
  let main_v1 : FVec F S512x225x256 .f32 := broadcastInDim S512x225x256 ![] bcast_S_S512x225x256 main_cst
  let main_v2 : IVec S512x225x256 1 := cmpf .olt main_v0 main_v1
  let main_c : IVec S_ 1 := constantI S_ 1 1#1
  let main_v3 : IVec S_ 1 := (fun x v => Host.reduce IntOp.andi x v reducesTo_S512x225x256_S_d0_1_2 h_S_) main_v2 main_c
  let main_v4 : FVec F S512x225x256 .f32 := Host.absf main_arg1
  let main_cst_0 : FVec F S_ .f32 := constant S_ .f32 0x7F800000#32
  let main_v5 : FVec F S512x225x256 .f32 := broadcastInDim S512x225x256 ![] bcast_S_S512x225x256 main_cst_0
  let main_v6 : IVec S512x225x256 1 := cmpf .olt main_v4 main_v5
  let main_c_1 : IVec S_ 1 := constantI S_ 1 1#1
  let main_v7 : IVec S_ 1 := (fun x v => Host.reduce IntOp.andi x v reducesTo_S512x225x256_S_d0_1_2 h_S_) main_v6 main_c_1
  let main_v8 : IVec S_ 1 := andi main_v3 main_v7
  let main_v9 : FVec F S512x256x15x15 .f32 := Host.absf main_arg2
  let main_cst_2 : FVec F S_ .f32 := constant S_ .f32 0x7F800000#32
  let main_v10 : FVec F S512x256x15x15 .f32 := broadcastInDim S512x256x15x15 ![] bcast_S_S512x256x15x15 main_cst_2
  let main_v11 : IVec S512x256x15x15 1 := cmpf .olt main_v9 main_v10
  let main_c_3 : IVec S_ 1 := constantI S_ 1 1#1
  let main_v12 : IVec S_ 1 := (fun x v => Host.reduce IntOp.andi x v reducesTo_S512x256x15x15_S_d0_1_2_3 h_S_) main_v11 main_c_3
  let main_v13 : IVec S_ 1 := andi main_v8 main_v12
  let main_v14 : FVec F S512x256x15x15 .f32 := Host.absf main_arg3
  let main_cst_4 : FVec F S_ .f32 := constant S_ .f32 0x7F800000#32
  let main_v15 : FVec F S512x256x15x15 .f32 := broadcastInDim S512x256x15x15 ![] bcast_S_S512x256x15x15 main_cst_4
  let main_v16 : IVec S512x256x15x15 1 := cmpf .olt main_v14 main_v15
  fn_part1 (F := F) main_v13 main_v16
-- ==== Kernel.lean ====
abbrev S512x225x256 : Shape := ⟨3, ![512, 225, 256]⟩
abbrev S512x256x15x15 : Shape := ⟨4, ![512, 256, 15, 15]⟩
abbrev S15 : Shape := ⟨1, ![15]⟩
abbrev S15x15 : Shape := ⟨2, ![15, 15]⟩
abbrev S15x15x1 : Shape := ⟨3, ![15, 15, 1]⟩
abbrev S15x15x2 : Shape := ⟨3, ![15, 15, 2]⟩
abbrev S225x2 : Shape := ⟨2, ![225, 2]⟩
abbrev S225x1 : Shape := ⟨2, ![225, 1]⟩
abbrev S225 : Shape := ⟨1, ![225]⟩
abbrev S1x225 : Shape := ⟨2, ![1, 225]⟩
abbrev S225x225 : Shape := ⟨2, ![225, 225]⟩
abbrev S_ : Shape := ⟨0, ![]⟩
abbrev S512x256x225 : Shape := ⟨3, ![512, 256, 225]⟩
abbrev S512x512x225 : Shape := ⟨3, ![512, 512, 225]⟩
abbrev S512x225x225 : Shape := ⟨3, ![512, 225, 225]⟩
abbrev S8x225x256 : Shape := ⟨3, ![8, 225, 256]⟩
abbrev S8x256x225 : Shape := ⟨3, ![8, 256, 225]⟩
abbrev S8x512x225 : Shape := ⟨3, ![8, 512, 225]⟩
abbrev S8x225x225 : Shape := ⟨3, ![8, 225, 225]⟩
abbrev S1x225x225 : Shape := ⟨3, ![1, 225, 225]⟩
abbrev S8x225 : Shape := ⟨2, ![8, 225]⟩
abbrev S8x1x225 : Shape := ⟨3, ![8, 1, 225]⟩
abbrev S512x512x15x15 : Shape := ⟨4, ![512, 512, 15, 15]⟩

abbrev nBuf : Space → Nat
  | .hbm => 46
  | .vmem => 13
  | .smem => 0
  | _ => 0

abbrev bufTy : (tb : Table) → Fin (tcTables nBuf tb) → BufTy
  | .hbm, ⟨0, _⟩ => ⟨S512x225x256, .f32⟩
  | .hbm, ⟨1, _⟩ => ⟨S512x225x256, .f32⟩
  | .hbm, ⟨2, _⟩ => ⟨S512x256x15x15, .f32⟩
  | .hbm, ⟨3, _⟩ => ⟨S512x256x15x15, .f32⟩
  | .hbm, ⟨4, _⟩ => ⟨S15, .i32⟩
  | .hbm, ⟨5, _⟩ => ⟨S15, .i32⟩
  | .hbm, ⟨6, _⟩ => ⟨S15x15, .i32⟩
  | .hbm, ⟨7, _⟩ => ⟨S15x15, .i32⟩
  | .hbm, ⟨8, _⟩ => ⟨S15x15x1, .i32⟩
  | .hbm, ⟨9, _⟩ => ⟨S15x15x1, .i32⟩
  | .hbm, ⟨10, _⟩ => ⟨S15x15x2, .i32⟩
  | .hbm, ⟨11, _⟩ => ⟨S225x2, .i32⟩
  | .hbm, ⟨12, _⟩ => ⟨S225x1, .i32⟩
  | .hbm, ⟨13, _⟩ => ⟨S225, .i32⟩
  | .hbm, ⟨14, _⟩ => ⟨S225x1, .i32⟩
  | .hbm, ⟨15, _⟩ => ⟨S225x1, .i32⟩
  | .hbm, ⟨16, _⟩ => ⟨S225, .i32⟩
  | .hbm, ⟨17, _⟩ => ⟨S1x225, .i32⟩
  | .hbm, ⟨18, _⟩ => ⟨S225x225, .i32⟩
  | .hbm, ⟨19, _⟩ => ⟨S225x225, .i32⟩
  | .hbm, ⟨20, _⟩ => ⟨S225x225, .i32⟩
  | .hbm, ⟨21, _⟩ => ⟨S225x225, .i32⟩
  | .hbm, ⟨22, _⟩ => ⟨S225x225, .f32⟩
  | .hbm, ⟨23, _⟩ => ⟨S225x1, .i32⟩
  | .hbm, ⟨24, _⟩ => ⟨S225, .i32⟩
  | .hbm, ⟨25, _⟩ => ⟨S225x1, .i32⟩
  | .hbm, ⟨26, _⟩ => ⟨S225x1, .i32⟩
  | .hbm, ⟨27, _⟩ => ⟨S225, .i32⟩
  | .hbm, ⟨28, _⟩ => ⟨S1x225, .i32⟩
  | .hbm, ⟨29, _⟩ => ⟨S225x225, .i32⟩
  | .hbm, ⟨30, _⟩ => ⟨S225x225, .i32⟩
  | .hbm, ⟨31, _⟩ => ⟨S225x225, .i32⟩
  | .hbm, ⟨32, _⟩ => ⟨S225x225, .i32⟩
  | .hbm, ⟨33, _⟩ => ⟨S225x225, .f32⟩
  | .hbm, ⟨34, _⟩ => ⟨S_, .f32⟩
  | .hbm, ⟨35, _⟩ => ⟨S225x225, .f32⟩
  | .hbm, ⟨36, _⟩ => ⟨S225x225, .f32⟩
  | .hbm, ⟨37, _⟩ => ⟨S_, .f32⟩
  | .hbm, ⟨38, _⟩ => ⟨S225x225, .f32⟩
  | .hbm, ⟨39, _⟩ => ⟨S225x225, .f32⟩
  | .hbm, ⟨40, _⟩ => ⟨S225x225, .f32⟩
  | .hbm, ⟨41, _⟩ => ⟨S512x256x225, .f32⟩
  | .hbm, ⟨42, _⟩ => ⟨S512x256x225, .f32⟩
  | .hbm, ⟨43, _⟩ => ⟨S512x512x225, .f32⟩
  | .hbm, ⟨44, _⟩ => ⟨S512x225x225, .f32⟩
  | .hbm, ⟨45, _⟩ => ⟨S512x512x15x15, .f32⟩
  | .local _ .vmem, ⟨0, _⟩ => ⟨S8x225x256, .f32⟩
  | .local _ .vmem, ⟨1, _⟩ => ⟨S8x225x256, .f32⟩
  | .local _ .vmem, ⟨2, _⟩ => ⟨S8x225x256, .f32⟩
  | .local _ .vmem, ⟨3, _⟩ => ⟨S8x225x256, .f32⟩
  | .local _ .vmem, ⟨4, _⟩ => ⟨S8x256x225, .f32⟩
  | .local _ .vmem, ⟨5, _⟩ => ⟨S8x256x225, .f32⟩
  | .local _ .vmem, ⟨6, _⟩ => ⟨S8x256x225, .f32⟩
  | .local _ .vmem, ⟨7, _⟩ => ⟨S8x256x225, .f32⟩
  | .local _ .vmem, ⟨8, _⟩ => ⟨S225x225, .f32⟩
  | .local _ .vmem, ⟨9, _⟩ => ⟨S8x512x225, .f32⟩
  | .local _ .vmem, ⟨10, _⟩ => ⟨S8x512x225, .f32⟩
  | .local _ .vmem, ⟨11, _⟩ => ⟨S8x225x225, .f32⟩
  | .local _ .vmem, ⟨12, _⟩ => ⟨S8x225x225, .f32⟩
  | _, _ => ⟨S512x225x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37_0 : Ref sig .tc := ⟨.hbm, 43, rfl⟩
abbrev main_v37_1 : Ref sig .tc := ⟨.hbm, 44, rfl⟩
abbrev main_v38 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x225x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x225x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x225 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x225 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S225x225 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512x225 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x225x225 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S15_S15x15_0 : S15.BroadcastsInDim S15x15 (![0] : Fin 1 → Fin S15x15.rank)
  bcast_S15_S15x15_1 : S15.BroadcastsInDim S15x15 (![1] : Fin 1 → Fin S15x15.rank)
  bcast_S15x15_S15x15x1_0_1 : S15x15.BroadcastsInDim S15x15x1 (![0, 1] : Fin 2 → Fin S15x15x1.rank)
  concatenates_S15x15x1_S15x15x1_S15x15x2_d2 : Shape.Concatenates [S15x15x1, S15x15x1] S15x15x2 2
  shapeCasts_S15x15x2_S225x2 : S15x15x2.ShapeCasts S225x2
  slices_S225x2_S225x1_0_0 : S225x2.Slices ![0, 0] S225x1
  shapeCasts_S225x1_S225 : S225x1.ShapeCasts S225
  bcast_S225_S225x1_0 : S225.BroadcastsInDim S225x1 (![0] : Fin 1 → Fin S225x1.rank)
  bcast_S225_S1x225_1 : S225.BroadcastsInDim S1x225 (![1] : Fin 1 → Fin S1x225.rank)
  bcast_S225x1_S225x225_0_1 : S225x1.BroadcastsInDim S225x225 (![0, 1] : Fin 2 → Fin S225x225.rank)
  bcast_S1x225_S225x225_0_1 : S1x225.BroadcastsInDim S225x225 (![0, 1] : Fin 2 → Fin S225x225.rank)
  slices_S225x2_S225x1_0_1 : S225x2.Slices ![0, 1] S225x1
  bcast_S_S225x225 : S_.BroadcastsInDim S225x225 (![] : Fin 0 → Fin S225x225.rank)
  shapeCasts_S512x256x15x15_S512x256x225 : S512x256x15x15.ShapeCasts S512x256x225
  inb_S8x225x256_S8x225x256_0_0_0 : ∀ a, (![0, 0, 0] : Fin 3 → Nat) a + S8x225x256.size a ≤ S8x225x256.size a
  h_S8x225x256 : 0 < S8x225x256.numel
  bitsLt_bf16_f32 : FTy.bits .bf16 < FTy.bits .f32
  inb_S8x256x225_S8x256x225_0_0_0 : ∀ a, (![0, 0, 0] : Fin 3 → Nat) a + S8x256x225.size a ≤ S8x256x225.size a
  h_S8x256x225 : 0 < S8x256x225.numel
  shapeCasts_S8x256x225_S8x256x225 : S8x256x225.ShapeCasts S8x256x225
  inb_S225x225_S225x225_0_0 : ∀ a, (![0, 0] : Fin 2 → Nat) a + S225x225.size a ≤ S225x225.size a
  h_S225x225 : 0 < S225x225.numel
  shapeCasts_S225x225_S225x225 : S225x225.ShapeCasts S225x225
  shapeCasts_S225x225_S1x225x225 : S225x225.ShapeCasts S1x225x225
  broadcasts_S1x225x225_S8x225x225 : S1x225x225.Broadcasts S8x225x225
  reduces_S8x225x225_S8x225 : S8x225x225.Reduces [1] S8x225
  shapeCasts_S8x225_S8x1x225 : S8x225.ShapeCasts S8x1x225
  broadcasts_S8x1x225_S8x225x225 : S8x1x225.Broadcasts S8x225x225
  inb_S8x225x225_S8x225x225_0_0_0 : ∀ a, (![0, 0, 0] : Fin 3 → Nat) a + S8x225x225.size a ≤ S8x225x225.size a
  h_S8x225x225 : 0 < S8x225x225.numel
  inb_S8x512x225_S8x256x225_0_0_0 : ∀ a, (![0, 0, 0] : Fin 3 → Nat) a + S8x256x225.size a ≤ S8x512x225.size a
  inb_S8x512x225_S8x256x225_0_256_0 : ∀ a, (![0, 256, 0] : Fin 3 → Nat) a + S8x256x225.size a ≤ S8x512x225.size a
  shapeCasts_S512x512x225_S512x512x15x15 : S512x512x225.ShapeCasts S512x512x15x15
  dot_S8x225x256_S8x256x225_S8x225x225_2_1_1_2_0_0_wf : DotDims.WF S8x225x256 S8x256x225 S8x225x225 [2] [1] [1] [2] [0] [0]
  dot_S8x225x256_S8x225x225_S8x256x225_1_1_2_2_0_0_wf : DotDims.WF S8x225x256 S8x225x225 S8x256x225 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x225x256.size a ≤ S512x225x256.size a
  hwx0_0 : ∀ i : grid0.Coords, EltTy.bits .f32 = 32 ∨ (Rect.block (s := S512x225x256) S8x225x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x225x256.size a ≤ S512x225x256.size a
  hwx0_1 : ∀ i : grid0.Coords, EltTy.bits .f32 = 32 ∨ (Rect.block (s := S512x225x256) S8x225x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x225.size a ≤ S512x256x225.size a
  hwx0_2 : ∀ i : grid0.Coords, EltTy.bits .f32 = 32 ∨ (Rect.block (s := S512x256x225) S8x256x225.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x225.size a ≤ S512x256x225.size a
  hwx0_3 : ∀ i : grid0.Coords, EltTy.bits .f32 = 32 ∨ (Rect.block (s := S512x256x225) S8x256x225.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S225x225.size a ≤ S225x225.size a
  hwx0_4 : ∀ i : grid0.Coords, EltTy.bits .f32 = 32 ∨ (Rect.block (s := S225x225) S225x225.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x225.size a ≤ S512x512x225.size a
  hwx0_5 : ∀ i : grid0.Coords, EltTy.bits .f32 = 32 ∨ (Rect.block (s := S512x512x225) S8x512x225.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x225x225.size a ≤ S512x225x225.size a
  hwx0_6 : ∀ i : grid0.Coords, EltTy.bits .f32 = 32 ∨ (Rect.block (s := S512x225x225) S8x225x225.size (cc0_transform_6 i) (hinb0_6 i)).WholeWords (EltTy.packing .f32)

variable [Facts₀]

def dot_S8x225x256_S8x256x225_S8x225x225_2_1_1_2_0_0 : DotDims S8x225x256 S8x256x225 S8x225x225 where
  lhsContracting := [2]
  rhsContracting := [1]
  lhsNonContracting := [1]
  rhsNonContracting := [2]
  lhsBatch := [0]
  rhsBatch := [0]
  wf := dot_S8x225x256_S8x256x225_S8x225x225_2_1_1_2_0_0_wf
def dot_S8x225x256_S8x225x225_S8x256x225_1_1_2_2_0_0 : DotDims S8x225x256 S8x225x225 S8x256x225 where
  lhsContracting := [1]
  rhsContracting := [1]
  lhsNonContracting := [2]
  rhsNonContracting := [2]
  lhsBatch := [0]
  rhsBatch := [0]
  wf := dot_S8x225x256_S8x225x225_S8x256x225_1_1_2_2_0_0_wf

abbrev win0_0 : Pipeline.Window sig grid0 :=
  Pipeline.Window.ofSpec (Memref.whole main_arg0) S8x225x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x225x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S8x256x225.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S8x256x225.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S225x225.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37_0) S8x512x225.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37_1) S8x225x225.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x225x256 : Shape := ⟨3, ![512, 225, 256]⟩
abbrev S512x256x15x15 : Shape := ⟨4, ![512, 256, 15, 15]⟩
abbrev S15 : Shape := ⟨1, ![15]⟩
abbrev S15x15 : Shape := ⟨2, ![15, 15]⟩
abbrev S15x15x1 : Shape := ⟨3, ![15, 15, 1]⟩
abbrev S15x15x2 : Shape := ⟨3, ![15, 15, 2]⟩
abbrev S225x2 : Shape := ⟨2, ![225, 2]⟩
abbrev S225x1 : Shape := ⟨2, ![225, 1]⟩
abbrev S225 : Shape := ⟨1, ![225]⟩
abbrev S1x225 : Shape := ⟨2, ![1, 225]⟩
abbrev S225x225 : Shape := ⟨2, ![225, 225]⟩
abbrev S_ : Shape := ⟨0, ![]⟩
abbrev S512x256x225 : Shape := ⟨3, ![512, 256, 225]⟩
abbrev S512x225x225 : Shape := ⟨3, ![512, 225, 225]⟩
abbrev S1x225x225 : Shape := ⟨3, ![1, 225, 225]⟩
abbrev S512x225 : Shape := ⟨2, ![512, 225]⟩
abbrev S512x1x225 : Shape := ⟨3, ![512, 1, 225]⟩
abbrev S512x512x15x15 : Shape := ⟨4, ![512, 512, 15, 15]⟩

abbrev nBuf : Space → Nat
  | .hbm => 66
  | .vmem => 0
  | .smem => 0
  | _ => 0

abbrev bufTy : (tb : Table) → Fin (tcTables nBuf tb) → BufTy
  | .hbm, ⟨0, _⟩ => ⟨S512x225x256, .f32⟩
  | .hbm, ⟨1, _⟩ => ⟨S512x225x256, .f32⟩
  | .hbm, ⟨2, _⟩ => ⟨S512x256x15x15, .f32⟩
  | .hbm, ⟨3, _⟩ => ⟨S512x256x15x15, .f32⟩
  | .hbm, ⟨4, _⟩ => ⟨S15, .i32⟩
  | .hbm, ⟨5, _⟩ => ⟨S15, .i32⟩
  | .hbm, ⟨6, _⟩ => ⟨S15x15, .i32⟩
  | .hbm, ⟨7, _⟩ => ⟨S15x15, .i32⟩
  | .hbm, ⟨8, _⟩ => ⟨S15x15x1, .i32⟩
  | .hbm, ⟨9, _⟩ => ⟨S15x15x1, .i32⟩
  | .hbm, ⟨10, _⟩ => ⟨S15x15x2, .i32⟩
  | .hbm, ⟨11, _⟩ => ⟨S225x2, .i32⟩
  | .hbm, ⟨12, _⟩ => ⟨S225x1, .i32⟩
  | .hbm, ⟨13, _⟩ => ⟨S225, .i32⟩
  | .hbm, ⟨14, _⟩ => ⟨S225x1, .i32⟩
  | .hbm, ⟨15, _⟩ => ⟨S225x1, .i32⟩
  | .hbm, ⟨16, _⟩ => ⟨S225, .i32⟩
  | .hbm, ⟨17, _⟩ => ⟨S1x225, .i32⟩
  | .hbm, ⟨18, _⟩ => ⟨S225x225, .i32⟩
  | .hbm, ⟨19, _⟩ => ⟨S225x225, .i32⟩
  | .hbm, ⟨20, _⟩ => ⟨S225x225, .i32⟩
  | .hbm, ⟨21, _⟩ => ⟨S225x225, .i32⟩
  | .hbm, ⟨22, _⟩ => ⟨S225x225, .f32⟩
  | .hbm, ⟨23, _⟩ => ⟨S225x1, .i32⟩
  | .hbm, ⟨24, _⟩ => ⟨S225, .i32⟩
  | .hbm, ⟨25, _⟩ => ⟨S225x1, .i32⟩
  | .hbm, ⟨26, _⟩ => ⟨S225x1, .i32⟩
  | .hbm, ⟨27, _⟩ => ⟨S225, .i32⟩
  | .hbm, ⟨28, _⟩ => ⟨S1x225, .i32⟩
  | .hbm, ⟨29, _⟩ => ⟨S225x225, .i32⟩
  | .hbm, ⟨30, _⟩ => ⟨S225x225, .i32⟩
  | .hbm, ⟨31, _⟩ => ⟨S225x225, .i32⟩
  | .hbm, ⟨32, _⟩ => ⟨S225x225, .i32⟩
  | .hbm, ⟨33, _⟩ => ⟨S225x225, .f32⟩
  | .hbm, ⟨34, _⟩ => ⟨S_, .f32⟩
  | .hbm, ⟨35, _⟩ => ⟨S225x225, .f32⟩
  | .hbm, ⟨36, _⟩ => ⟨S225x225, .f32⟩
  | .hbm, ⟨37, _⟩ => ⟨S_, .f32⟩
  | .hbm, ⟨38, _⟩ => ⟨S225x225, .f32⟩
  | .hbm, ⟨39, _⟩ => ⟨S225x225, .f32⟩
  | .hbm, ⟨40, _⟩ => ⟨S225x225, .f32⟩
  | .hbm, ⟨41, _⟩ => ⟨S512x256x225, .f32⟩
  | .hbm, ⟨42, _⟩ => ⟨S512x225x225, .f32⟩
  | .hbm, ⟨43, _⟩ => ⟨S_, .f32⟩
  | .hbm, ⟨44, _⟩ => ⟨S512x225x225, .f32⟩
  | .hbm, ⟨45, _⟩ => ⟨S512x225x225, .f32⟩
  | .hbm, ⟨46, _⟩ => ⟨S1x225x225, .f32⟩
  | .hbm, ⟨47, _⟩ => ⟨S512x225x225, .f32⟩
  | .hbm, ⟨48, _⟩ => ⟨S512x225x225, .f32⟩
  | .hbm, ⟨49, _⟩ => ⟨S_, .f32⟩
  | .hbm, ⟨50, _⟩ => ⟨S512x225, .f32⟩
  | .hbm, ⟨51, _⟩ => ⟨S_, .f32⟩
  | .hbm, ⟨52, _⟩ => ⟨S512x225, .f32⟩
  | .hbm, ⟨53, _⟩ => ⟨S512x225, .f32⟩
  | .hbm, ⟨54, _⟩ => ⟨S512x1x225, .f32⟩
  | .hbm, ⟨55, _⟩ => ⟨S512x225x225, .f32⟩
  | .hbm, ⟨56, _⟩ => ⟨S512x225x225, .f32⟩
  | .hbm, ⟨57, _⟩ => ⟨S512x225x225, .f32⟩
  | .hbm, ⟨58, _⟩ => ⟨S_, .f32⟩
  | .hbm, ⟨59, _⟩ => ⟨S512x225, .f32⟩
  | .hbm, ⟨60, _⟩ => ⟨S512x1x225, .f32⟩
  | .hbm, ⟨61, _⟩ => ⟨S512x225x225, .f32⟩
  | .hbm, ⟨62, _⟩ => ⟨S512x225x225, .f32⟩
  | .hbm, ⟨63, _⟩ => ⟨S512x256x225, .f32⟩
  | .hbm, ⟨64, _⟩ => ⟨S512x256x15x15, .f32⟩
  | .hbm, ⟨65, _⟩ => ⟨S512x512x15x15, .f32⟩
  | _, _ => ⟨S512x225x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]

class Facts₀ : Prop where
  bcast_S15_S15x15_0 : S15.BroadcastsInDim S15x15 (![0] : Fin 1 → Fin S15x15.rank)
  bcast_S15_S15x15_1 : S15.BroadcastsInDim S15x15 (![1] : Fin 1 → Fin S15x15.rank)
  bcast_S15x15_S15x15x1_0_1 : S15x15.BroadcastsInDim S15x15x1 (![0, 1] : Fin 2 → Fin S15x15x1.rank)
  concatenates_S15x15x1_S15x15x1_S15x15x2_d2 : Shape.Concatenates [S15x15x1, S15x15x1] S15x15x2 2
  shapeCasts_S15x15x2_S225x2 : S15x15x2.ShapeCasts S225x2
  slices_S225x2_S225x1_0_0 : S225x2.Slices ![0, 0] S225x1
  shapeCasts_S225x1_S225 : S225x1.ShapeCasts S225
  bcast_S225_S225x1_0 : S225.BroadcastsInDim S225x1 (![0] : Fin 1 → Fin S225x1.rank)
  bcast_S225_S1x225_1 : S225.BroadcastsInDim S1x225 (![1] : Fin 1 → Fin S1x225.rank)
  bcast_S225x1_S225x225_0_1 : S225x1.BroadcastsInDim S225x225 (![0, 1] : Fin 2 → Fin S225x225.rank)
  bcast_S1x225_S225x225_0_1 : S1x225.BroadcastsInDim S225x225 (![0, 1] : Fin 2 → Fin S225x225.rank)
  slices_S225x2_S225x1_0_1 : S225x2.Slices ![0, 1] S225x1
  bcast_S_S225x225 : S_.BroadcastsInDim S225x225 (![] : Fin 0 → Fin S225x225.rank)
  shapeCasts_S512x256x15x15_S512x256x225 : S512x256x15x15.ShapeCasts S512x256x225
  bcast_S_S512x225x225 : S_.BroadcastsInDim S512x225x225 (![] : Fin 0 → Fin S512x225x225.rank)
  bcast_S225x225_S1x225x225_1_2 : S225x225.BroadcastsInDim S1x225x225 (![1, 2] : Fin 2 → Fin S1x225x225.rank)
  bcast_S1x225x225_S512x225x225_0_1_2 : S1x225x225.BroadcastsInDim S512x225x225 (![0, 1, 2] : Fin 3 → Fin S512x225x225.rank)
  reducesTo_S512x225x225_S512x225_d1 : S512x225x225.ReducesTo [1] S512x225
  h_S_ : 0 < S_.numel
  bcast_S_S512x225 : S_.BroadcastsInDim S512x225 (![] : Fin 0 → Fin S512x225.rank)
  bcast_S512x225_S512x1x225_0_2 : S512x225.BroadcastsInDim S512x1x225 (![0, 2] : Fin 2 → Fin S512x1x225.rank)
  bcast_S512x1x225_S512x225x225_0_1_2 : S512x1x225.BroadcastsInDim S512x225x225 (![0, 1, 2] : Fin 3 → Fin S512x225x225.rank)
  shapeCasts_S512x256x225_S512x256x15x15 : S512x256x225.ShapeCasts S512x256x15x15
  concatenates_S512x256x15x15_S512x256x15x15_S512x512x15x15_d1 : Shape.Concatenates [S512x256x15x15, S512x256x15x15] S512x512x15x15 1
  dot_S512x225x256_S512x256x225_S512x225x225_2_1_1_2_0_0_wf : DotDims.WF S512x225x256 S512x256x225 S512x225x225 [2] [1] [1] [2] [0] [0]
  dot_S512x225x256_S512x225x225_S512x256x225_1_1_2_2_0_0_wf : DotDims.WF S512x225x256 S512x225x225 S512x256x225 [1] [1] [2] [2] [0] [0]

variable [Facts₀]

def dot_S512x225x256_S512x256x225_S512x225x225_2_1_1_2_0_0 : DotDims S512x225x256 S512x256x225 S512x225x225 where
  lhsContracting := [2]
  rhsContracting := [1]
  lhsNonContracting := [1]
  rhsNonContracting := [2]
  lhsBatch := [0]
  rhsBatch := [0]
  wf := dot_S512x225x256_S512x256x225_S512x225x225_2_1_1_2_0_0_wf
def dot_S512x225x256_S512x225x225_S512x256x225_1_1_2_2_0_0 : DotDims S512x225x256 S512x225x225 S512x256x225 where
  lhsContracting := [1]
  rhsContracting := [1]
  lhsNonContracting := [2]
  rhsNonContracting := [2]
  lhsBatch := [0]
  rhsBatch := [0]
  wf := dot_S512x225x256_S512x225x225_S512x256x225_1_1_2_2_0_0_wf

class Facts : Prop extends Facts₀ where

variable [Facts]
-- ==== Proof.LibColumnAttention.lean ====
/-
  Attention whose softmax runs DOWN THE COLUMNS of a score matrix, on the extended reals.

  For row blocks `A : N × C`, `Q : C × M`, a mask `K : N × M` and values `B : N × V`:
    scores   S n m = sc (∑ c, A n c · Q c m) · K n m          (`sc` the scaling of a dot product)
    colMax   μ m   = the fold of `max` from `b` over n of S n m
    weight   e n m = exp (S n m - μ m)
    soft     p n m = e n m / ∑ k, e k m                        (each column sums to one where that makes sense)
    attend   o v m = ∑ n, B n v · p n m
  Everything is stated for arbitrary extents and arbitrary extended reals: no finiteness is used, because the
  two laws proved here hold everywhere. They are: a maximum taken once more against the value the fold started
  from changes nothing (`max_fold_start`), and dividing by sixteen is multiplying by a sixteenth, at the
  infinities too (`div_sixteen`), with the two single-precision words 0x41800000 = 16 and 0x3D800000 = 1/16.
-/
import Idealize.ShloMosaic.PureOps.Ideal
import Mathlib.Data.Finset.Fold

noncomputable section

namespace Cert.ColumnAttention

open Idealize.ShloMosaic

variable {N M C V : ℕ}

/-- The scaled, masked scores: entry (n, m) is the scaled dot product of row n of `A` with column m of `Q`,
    times the mask there. -/
def scores (sc : EReal → EReal) (A : Fin N → Fin C → EReal) (Q : Fin C → Fin M → EReal)
    (K : Fin N → Fin M → EReal) : Fin N → Fin M → EReal :=
  fun n m => sc (∑ c : Fin C, A n c * Q c m) * K n m

/-- The maximum of column m, folded from `b`. -/
def colMax (b : EReal) (S : Fin N → Fin M → EReal) (m : Fin M) : EReal :=
  (Finset.univ : Finset (Fin N)).fold max b (fun n => S n m)

/-- The unnormalised softmax weight: the exponential of a score less its column's maximum. -/
def weight (b : EReal) (S : Fin N → Fin M → EReal) : Fin N → Fin M → EReal :=
  fun n m => Ideal.exp (S n m - colMax b S m)

/-- The softmax down each column. -/
def soft (b : EReal) (S : Fin N → Fin M → EReal) : Fin N → Fin M → EReal :=
  fun n m => Ideal.div (weight b S n m) (∑ k : Fin N, weight b S k m)

/-- The attended values: entry (v, m) sums, over the rows n, value (n, v) times probability (n, m). -/
def attend (B : Fin N → Fin V → EReal) (P : Fin N → Fin M → EReal) : Fin V → Fin M → EReal :=
  fun v m => ∑ n : Fin N, B n v * P n m

/-- A fold of `max` is at least the value it started from, so one more `max` against that value is absorbed. -/
theorem max_fold_start (b : EReal) (f : Fin N → EReal) :
    max b ((Finset.univ : Finset (Fin N)).fold max b f) = (Finset.univ : Finset (Fin N)).fold max b f :=
  max_eq_right ((Finset.le_fold_max b).mpr (Or.inl le_rfl))

/-- The single-precision word 0x41800000 is sixteen. -/
theorem ofBits_sixteen : Ideal.ofBits .f32 0x41800000#32 = ((16 : ℝ) : EReal) := by
  simp [Ideal.ofBits, Ideal.ieee, -EReal.coe_mul]; norm_num

/-- The single-precision word 0x3D800000 is one sixteenth. -/
theorem ofBits_sixteenth : Ideal.ofBits .f32 0x3D800000#32 = ((1 / 16 : ℝ) : EReal) := by
  simp [Ideal.ofBits, Ideal.ieee, -EReal.coe_mul]; norm_num

/-- Dividing by sixteen is multiplying by a sixteenth, on every extended real. -/
theorem div_sixteen (x : EReal) :
    Ideal.div x (Ideal.ofBits .f32 0x41800000#32) = x * Ideal.ofBits .f32 0x3D800000#32 := by
  rw [ofBits_sixteen, ofBits_sixteenth, Ideal.div_coe (by norm_num)]

end Cert.ColumnAttention

end
-- ==== Proof.AttentionSpec.lean ====
/-
  What the two programs compute, as functions of the whole argument arrays, entry by entry.

  For batch b (of 512): with A_b the 225 × 256 rows of the first argument, Q_b the 256 × 225 rows of the
  regrouped queries, and K the 225 × 225 decay mask,
    probs  (b, n, m) = the softmax down column m of  (A_b · Q_b) · (1/16) · K        (over the centers n)
    merged (b, r, m) = ∑ n, B_b(n, r) · probs (b, n, m)   for r < 256   (the attended values),
                       the passed-through array at (b, r - 256, m) for r ≥ 256.
  Batch b's entries read batch b's rows only. The maxima are folded from the word for minus infinity and the
  scaling is the product with the word for one sixteenth, as the kernel spells them.
-/
import proofs.«167485_j4939212390857_2_alg».proof.Proof.LibColumnAttention
import Idealize.ShloMosaic.Lib.ValueIdx

noncomputable section

namespace Cert.AttentionSpec

open Idealize.ShloMosaic Idealize.ShloMosaic.ValueIdx Cert.ColumnAttention

/-- The value the column maxima are folded from: the word for minus infinity. -/
abbrev negInf : EReal := Ideal.ofBits .f32 0xFF800000#32

/-- The scaling of a dot product: times the word for one sixteenth. -/
abbrev scaleK : EReal → EReal := fun x => x * Ideal.ofBits .f32 0x3D800000#32

/-- Batch b's probabilities, as a 225 × 225 matrix. -/
def probsAt (a0 : (⟨3, ![512, 225, 256]⟩ : Shape).Idx → EReal) (q : (⟨3, ![512, 256, 225]⟩ : Shape).Idx → EReal)
    (k : (⟨2, ![225, 225]⟩ : Shape).Idx → EReal) (b : Fin 512) : Fin 225 → Fin 225 → EReal :=
  soft negInf (scores scaleK (fun n c => a0 (ix3 b n c)) (fun c m => q (ix3 b c m)) (fun n m => k (ix2 n m)))

/-- The probabilities over the whole batch. -/
def probs (a0 : (⟨3, ![512, 225, 256]⟩ : Shape).Idx → EReal) (q : (⟨3, ![512, 256, 225]⟩ : Shape).Idx → EReal)
    (k : (⟨2, ![225, 225]⟩ : Shape).Idx → EReal) : (⟨3, ![512, 225, 225]⟩ : Shape).Idx → EReal :=
  fun i => probsAt a0 q k (i 0) (i 1) (i 2)

theorem probs_apply (a0 : (⟨3, ![512, 225, 256]⟩ : Shape).Idx → EReal) (q : (⟨3, ![512, 256, 225]⟩ : Shape).Idx → EReal)
    (k : (⟨2, ![225, 225]⟩ : Shape).Idx → EReal) (b : Fin 512) (n m : Fin 225) :
    probs a0 q k (ix3 b n m) = probsAt a0 q k b n m := rfl

/-- Row r of batch b's second result: an attended row below 256, a passed-through row from 256 on. -/
def mergedAt (a0 a1 : (⟨3, ![512, 225, 256]⟩ : Shape).Idx → EReal) (q q3 : (⟨3, ![512, 256, 225]⟩ : Shape).Idx → EReal)
    (k : (⟨2, ![225, 225]⟩ : Shape).Idx → EReal) (b r : Fin 512) (m : Fin 225) : EReal :=
  if h : r.val < 256 then attend (fun n v => a1 (ix3 b n v)) (probsAt a0 q k b) (⟨r.val, h⟩ : Fin 256) m
  else q3 (ix3 b (⟨r.val - 256, by have := r.isLt; omega⟩ : Fin 256) m)

/-- The attended values joined with the passed-through array along the rows, over the whole batch. -/
def merged (a0 a1 : (⟨3, ![512, 225, 256]⟩ : Shape).Idx → EReal) (q q3 : (⟨3, ![512, 256, 225]⟩ : Shape).Idx → EReal)
    (k : (⟨2, ![225, 225]⟩ : Shape).Idx → EReal) : (⟨3, ![512, 512, 225]⟩ : Shape).Idx → EReal :=
  fun i => mergedAt a0 a1 q q3 k (i 0) (i 1) (i 2)

theorem merged_apply (a0 a1 : (⟨3, ![512, 225, 256]⟩ : Shape).Idx → EReal) (q q3 : (⟨3, ![512, 256, 225]⟩ : Shape).Idx → EReal)
    (k : (⟨2, ![225, 225]⟩ : Shape).Idx → EReal) (b r : Fin 512) (m : Fin 225) :
    merged a0 a1 q q3 k (ix3 b r m) = mergedAt a0 a1 q q3 k b r m := rfl

end Cert.AttentionSpec

end
-- ==== Proof.KernelBlock.lean ====
/-
  One grid point of the attention kernel, read entry by entry at the ideal values.

  A block holds eight batches. For batch b of the block the body forms the masked, scaled scores
  S = (A_b · Q_b) · (1/16) · K, takes the softmax of S down each column (over the centers n), stores it, and
  stores the attended values ∑ n, B_b(n, v) · p(n, m); the last buffer passes through unchanged. Each entry of a
  batch depends on that batch's rows of the inputs only, which is what lets the blocks be read as restrictions of
  one whole-array function later. The body's value is cut into three stages (scores, exponentials, quotient) so
  that each shared intermediate is read once.
-/
import proofs.«167485_j4939212390857_2_alg».proof.Proof.Gen.KernelIdeal.Skeleton
import proofs.«167485_j4939212390857_2_alg».proof.Proof.AttentionSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.ColumnAttention Cert.AttentionSpec
/-! ## Layout steps at an entry -/

/-- The mask, given a leading unit axis and repeated over the eight batches, reads the mask at (n, m). -/
theorem maskBcast_apply (k : FVec Ideal S225x225 .f32) (b : Fin 8) (n m : Fin 225) :
    broadcastTo S8x225x225 (shapeCast S1x225x225 (shapeCast S225x225 k shapeCasts_S225x225_S225x225) shapeCasts_S225x225_S1x225x225)
      broadcasts_S1x225x225_S8x225x225 (ix3 b n m) = k (ix2 n m) := by
  rw [shapeCast_self]
  refine (broadcastTo_apply _ broadcasts_S1x225x225_S8x225x225 (ix3 b n m) (ix3 (0 : Fin 1) n m) (fun a => match a with
    | ⟨0, _⟩ => by show (0 : Nat) = if (1 : Nat) = 1 then 0 else b.val; rw [if_pos rfl]
    | ⟨1, _⟩ => by show n.val = if (225 : Nat) = 1 then 0 else n.val; rw [if_neg (by decide)]
    | ⟨2, _⟩ => by show m.val = if (225 : Nat) = 1 then 0 else m.val; rw [if_neg (by decide)])).trans ?_
  exact shapeCast_ab_1ab_apply k shapeCasts_S225x225_S1x225x225 (0 : Fin 1) n m

/-- A per-column row [8, 225], given a middle unit axis and repeated down the 225 centers, reads the row at (b, m). -/
theorem colBcast_apply (r : FVec Ideal S8x225 .f32) (b : Fin 8) (n m : Fin 225) :
    broadcastTo S8x225x225 (shapeCast S8x1x225 r shapeCasts_S8x225_S8x1x225) broadcasts_S8x1x225_S8x225x225 (ix3 b n m)
      = r (ix2 b m) := by
  refine (broadcastTo_apply _ broadcasts_S8x1x225_S8x225x225 (ix3 b n m) (ix3 b (0 : Fin 1) m) (fun a => match a with
    | ⟨0, _⟩ => by show b.val = if (8 : Nat) = 1 then 0 else b.val; rw [if_neg (by decide)]
    | ⟨1, _⟩ => by show (0 : Nat) = if (1 : Nat) = 1 then 0 else n.val; rw [if_pos rfl]
    | ⟨2, _⟩ => by show m.val = if (225 : Nat) = 1 then 0 else m.val; rw [if_neg (by decide)])).trans ?_
  exact shapeCast_apply r shapeCasts_S8x225_S8x1x225 (ix3 b (0 : Fin 1) m) (ix2 b m) (by
    rw [Shape.rowMajor_val_two, Shape.rowMajor_val_three]
    show b.val * 225 + m.val = (b.val * 1 + 0) * 225 + m.val
    omega)

/-! ## The two reductions down the centers axis -/

/-- The maximum over the centers axis at (b, m): the fold of `max` from minus infinity over n. -/
theorem redMax_apply (x : FVec Ideal S8x225x225 .f32) (hφ : FKind.Formats .f32)
    (hacc : (0xFF800000#32 : BitVec 32) = FKind.maximumf.neutral .f32 hφ) (b : Fin 8) (m : Fin 225) :
    multiReduction .maximumf [1] S8x225 x 0xFF800000#32 reduces_S8x225x225_S8x225 hφ hacc (ix2 b m)
      = (Finset.univ : Finset (Fin 225)).fold max negInf (fun n => x (ix3 b n m)) := by
  refine (Ideal.multiReduction_maximumf_single x 0xFF800000#32 reduces_S8x225x225_S8x225 hφ hacc (ix2 b m)).trans ?_
  have e : (x ∘ reduces_S8x225x225_S8x225.lift (ix2 b m)) = fun n : Fin 225 => x (ix3 b n m) :=
    funext fun n => congrArg x (funext fun a => Fin.ext (by
      match a with
      | ⟨0, _⟩ => rfl
      | ⟨1, _⟩ => rfl
      | ⟨2, _⟩ => rfl))
  rw [e]
  rfl

/-- The sum over the centers axis at (b, m). -/
theorem redAdd_apply (x : FVec Ideal S8x225x225 .f32) (hφ : FKind.Formats .f32)
    (hacc : (0x00000000#32 : BitVec 32) = FKind.add.neutral .f32 hφ) (b : Fin 8) (m : Fin 225) :
    multiReduction .add [1] S8x225 x 0x00000000#32 reduces_S8x225x225_S8x225 hφ hacc (ix2 b m)
      = ∑ n : Fin 225, x (ix3 b n m) := by
  refine (Ideal.multiReduction_add_single x 0x00000000#32 reduces_S8x225x225_S8x225 hφ hacc (ix2 b m)).trans ?_
  refine Finset.sum_congr rfl fun n _ => ?_
  exact congrArg x (funext fun a => Fin.ext (by
    match a with
    | ⟨0, _⟩ => rfl
    | ⟨1, _⟩ => rfl
    | ⟨2, _⟩ => rfl))

/-! ## The two batched products -/

theorem lhs1_0 (i : S8x225x225.Idx) (q : dot_S8x225x256_S8x256x225_S8x225x225_2_1_1_2_0_0.contr.Idx) :
    (dot_S8x225x256_S8x256x225_S8x225x225_2_1_1_2_0_0.lhsIdx i q 0).val = (i 0).val := by
  unfold DotDims.lhsIdx
  rw [dif_pos (show (0 : Fin S8x225x256.rank) ∈ dot_S8x225x256_S8x256x225_S8x225x225_2_1_1_2_0_0.lhsBatch by decide)]
  rfl
theorem lhs1_1 (i : S8x225x225.Idx) (q : dot_S8x225x256_S8x256x225_S8x225x225_2_1_1_2_0_0.contr.Idx) :
    (dot_S8x225x256_S8x256x225_S8x225x225_2_1_1_2_0_0.lhsIdx i q 1).val = (i 1).val := by
  unfold DotDims.lhsIdx
  rw [dif_neg (show ¬(1 : Fin S8x225x256.rank) ∈ dot_S8x225x256_S8x256x225_S8x225x225_2_1_1_2_0_0.lhsBatch by decide),
    dif_pos (show (1 : Fin S8x225x256.rank) ∈ dot_S8x225x256_S8x256x225_S8x225x225_2_1_1_2_0_0.lhsNonContracting by decide)]
  rfl
theorem lhs1_2 (i : S8x225x225.Idx) (q : dot_S8x225x256_S8x256x225_S8x225x225_2_1_1_2_0_0.contr.Idx) :
    (dot_S8x225x256_S8x256x225_S8x225x225_2_1_1_2_0_0.lhsIdx i q 2).val = (q ⟨0, by decide⟩).val :=
  dot_S8x225x256_S8x256x225_S8x225x225_2_1_1_2_0_0.lhsIdx_val_of_single rfl i q
theorem rhs1_0 (i : S8x225x225.Idx) (q : dot_S8x225x256_S8x256x225_S8x225x225_2_1_1_2_0_0.contr.Idx) :
    (dot_S8x225x256_S8x256x225_S8x225x225_2_1_1_2_0_0.rhsIdx i q 0).val = (i 0).val := by
  unfold DotDims.rhsIdx
  rw [dif_pos (show (0 : Fin S8x256x225.rank) ∈ dot_S8x225x256_S8x256x225_S8x225x225_2_1_1_2_0_0.rhsBatch by decide)]
  rfl
theorem rhs1_1 (i : S8x225x225.Idx) (q : dot_S8x225x256_S8x256x225_S8x225x225_2_1_1_2_0_0.contr.Idx) :
    (dot_S8x225x256_S8x256x225_S8x225x225_2_1_1_2_0_0.rhsIdx i q 1).val = (q ⟨0, by decide⟩).val :=
  dot_S8x225x256_S8x256x225_S8x225x225_2_1_1_2_0_0.rhsIdx_val_of_single rfl i q
theorem rhs1_2 (i : S8x225x225.Idx) (q : dot_S8x225x256_S8x256x225_S8x225x225_2_1_1_2_0_0.contr.Idx) :
    (dot_S8x225x256_S8x256x225_S8x225x225_2_1_1_2_0_0.rhsIdx i q 2).val = (i 2).val := by
  unfold DotDims.rhsIdx
  rw [dif_neg (show ¬(2 : Fin S8x256x225.rank) ∈ dot_S8x225x256_S8x256x225_S8x225x225_2_1_1_2_0_0.rhsBatch by decide),
    dif_pos (show (2 : Fin S8x256x225.rank) ∈ dot_S8x225x256_S8x256x225_S8x225x225_2_1_1_2_0_0.rhsNonContracting by decide)]
  rfl

/-- The first product at (b, n, m): batch b's row n of the left operand against its column m of the right one. -/
theorem matmul1_apply (x : FVec Ideal S8x225x256 .bf16) (y : FVec Ideal S8x256x225 .bf16) (b : Fin 8) (n m : Fin 225) :
    matmul dot_S8x225x256_S8x256x225_S8x225x225_2_1_1_2_0_0 none x y (constant S8x225x225 .f32 0x00000000#32) (ix3 b n m)
      = ∑ k : Fin 256, x (ix3 b n k) * y (ix3 b k m) := by
  simp only [matmul]
  rw [Ideal.matmul_constant_zero_apply, ← Equiv.sum_comp (ValueIdx.contrEquiv1 dot_S8x225x256_S8x256x225_S8x225x225_2_1_1_2_0_0 256 rfl rfl).symm]
  refine Finset.sum_congr rfl fun k _ => ?_
  have hk := ValueIdx.contrEquiv1_symm_val dot_S8x225x256_S8x256x225_S8x225x225_2_1_1_2_0_0 256 rfl rfl k
  have el : dot_S8x225x256_S8x256x225_S8x225x225_2_1_1_2_0_0.lhsIdx (ix3 b n m) ((ValueIdx.contrEquiv1 dot_S8x225x256_S8x256x225_S8x225x225_2_1_1_2_0_0 256 rfl rfl).symm k) = ix3 b n k := funext fun a => Fin.ext (by
    match a with
    | ⟨0, _⟩ => exact lhs1_0 _ _
    | ⟨1, _⟩ => exact lhs1_1 _ _
    | ⟨2, _⟩ => exact (lhs1_2 _ _).trans hk)
  have er : dot_S8x225x256_S8x256x225_S8x225x225_2_1_1_2_0_0.rhsIdx (ix3 b n m) ((ValueIdx.contrEquiv1 dot_S8x225x256_S8x256x225_S8x225x225_2_1_1_2_0_0 256 rfl rfl).symm k) = ix3 b k m := funext fun a => Fin.ext (by
    match a with
    | ⟨0, _⟩ => exact rhs1_0 _ _
    | ⟨1, _⟩ => exact (rhs1_1 _ _).trans hk
    | ⟨2, _⟩ => exact rhs1_2 _ _)
  rw [el, er]

theorem lhs2_0 (i : S8x256x225.Idx) (q : dot_S8x225x256_S8x225x225_S8x256x225_1_1_2_2_0_0.contr.Idx) :
    (dot_S8x225x256_S8x225x225_S8x256x225_1_1_2_2_0_0.lhsIdx i q 0).val = (i 0).val := by
  unfold DotDims.lhsIdx
  rw [dif_pos (show (0 : Fin S8x225x256.rank) ∈ dot_S8x225x256_S8x225x225_S8x256x225_1_1_2_2_0_0.lhsBatch by decide)]
  rfl
theorem lhs2_1 (i : S8x256x225.Idx) (q : dot_S8x225x256_S8x225x225_S8x256x225_1_1_2_2_0_0.contr.Idx) :
    (dot_S8x225x256_S8x225x225_S8x256x225_1_1_2_2_0_0.lhsIdx i q 1).val = (q ⟨0, by decide⟩).val :=
  dot_S8x225x256_S8x225x225_S8x256x225_1_1_2_2_0_0.lhsIdx_val_of_single rfl i q
theorem lhs2_2 (i : S8x256x225.Idx) (q : dot_S8x225x256_S8x225x225_S8x256x225_1_1_2_2_0_0.contr.Idx) :
    (dot_S8x225x256_S8x225x225_S8x256x225_1_1_2_2_0_0.lhsIdx i q 2).val = (i 1).val := by
  unfold DotDims.lhsIdx
  rw [dif_neg (show ¬(2 : Fin S8x225x256.rank) ∈ dot_S8x225x256_S8x225x225_S8x256x225_1_1_2_2_0_0.lhsBatch by decide),
    dif_pos (show (2 : Fin S8x225x256.rank) ∈ dot_S8x225x256_S8x225x225_S8x256x225_1_1_2_2_0_0.lhsNonContracting by decide)]
  rfl
theorem rhs2_0 (i : S8x256x225.Idx) (q : dot_S8x225x256_S8x225x225_S8x256x225_1_1_2_2_0_0.contr.Idx) :
    (dot_S8x225x256_S8x225x225_S8x256x225_1_1_2_2_0_0.rhsIdx i q 0).val = (i 0).val := by
  unfold DotDims.rhsIdx
  rw [dif_pos (show (0 : Fin S8x225x225.rank) ∈ dot_S8x225x256_S8x225x225_S8x256x225_1_1_2_2_0_0.rhsBatch by decide)]
  rfl
theorem rhs2_1 (i : S8x256x225.Idx) (q : dot_S8x225x256_S8x225x225_S8x256x225_1_1_2_2_0_0.contr.Idx) :
    (dot_S8x225x256_S8x225x225_S8x256x225_1_1_2_2_0_0.rhsIdx i q 1).val = (q ⟨0, by decide⟩).val :=
  dot_S8x225x256_S8x225x225_S8x256x225_1_1_2_2_0_0.rhsIdx_val_of_single rfl i q
theorem rhs2_2 (i : S8x256x225.Idx) (q : dot_S8x225x256_S8x225x225_S8x256x225_1_1_2_2_0_0.contr.Idx) :
    (dot_S8x225x256_S8x225x225_S8x256x225_1_1_2_2_0_0.rhsIdx i q 2).val = (i 2).val := by
  unfold DotDims.rhsIdx
  rw [dif_neg (show ¬(2 : Fin S8x225x225.rank) ∈ dot_S8x225x256_S8x225x225_S8x256x225_1_1_2_2_0_0.rhsBatch by decide),
    dif_pos (show (2 : Fin S8x225x225.rank) ∈ dot_S8x225x256_S8x225x225_S8x256x225_1_1_2_2_0_0.rhsNonContracting by decide)]
  rfl

/-- The second product at (b, v, m): it contracts the centers axis of both operands. -/
theorem matmul2_apply (x : FVec Ideal S8x225x256 .bf16) (p : FVec Ideal S8x225x225 .bf16) (b : Fin 8) (v : Fin 256) (m : Fin 225) :
    matmul dot_S8x225x256_S8x225x225_S8x256x225_1_1_2_2_0_0 none x p (constant S8x256x225 .f32 0x00000000#32) (ix3 b v m)
      = ∑ k : Fin 225, x (ix3 b k v) * p (ix3 b k m) := by
  simp only [matmul]
  rw [Ideal.matmul_constant_zero_apply, ← Equiv.sum_comp (ValueIdx.contrEquiv1 dot_S8x225x256_S8x225x225_S8x256x225_1_1_2_2_0_0 225 rfl rfl).symm]
  refine Finset.sum_congr rfl fun k _ => ?_
  have hk := ValueIdx.contrEquiv1_symm_val dot_S8x225x256_S8x225x225_S8x256x225_1_1_2_2_0_0 225 rfl rfl k
  have el : dot_S8x225x256_S8x225x225_S8x256x225_1_1_2_2_0_0.lhsIdx (ix3 b v m) ((ValueIdx.contrEquiv1 dot_S8x225x256_S8x225x225_S8x256x225_1_1_2_2_0_0 225 rfl rfl).symm k) = ix3 b k v := funext fun a => Fin.ext (by
    match a with
    | ⟨0, _⟩ => exact lhs2_0 _ _
    | ⟨1, _⟩ => exact (lhs2_1 _ _).trans hk
    | ⟨2, _⟩ => exact lhs2_2 _ _)
  have er : dot_S8x225x256_S8x225x225_S8x256x225_1_1_2_2_0_0.rhsIdx (ix3 b v m) ((ValueIdx.contrEquiv1 dot_S8x225x256_S8x225x225_S8x256x225_1_1_2_2_0_0 225 rfl rfl).symm k) = ix3 b k m := funext fun a => Fin.ext (by
    match a with
    | ⟨0, _⟩ => exact rhs2_0 _ _
    | ⟨1, _⟩ => exact (rhs2_1 _ _).trans hk
    | ⟨2, _⟩ => exact rhs2_2 _ _)
  rw [el, er]

/-! ## The body's value in three stages -/

/-- The masked, scaled scores of a block. -/
def stageScores (x0 : Vec Ideal S8x225x256 .f32) (x2 : Vec Ideal S8x256x225 .f32) (x4 : Vec Ideal S225x225 .f32) : FVec Ideal S8x225x225 .f32 :=
  mulf (mulf (matmul dot_S8x225x256_S8x256x225_S8x225x225_2_1_1_2_0_0 none (truncf .bf16 x0 bitsLt_bf16_f32)
        (truncf .bf16 (shapeCast S8x256x225 x2 shapeCasts_S8x256x225_S8x256x225) bitsLt_bf16_f32) (constant S8x225x225 .f32 0x00000000#32))
      (broadcast S8x225x225 (Scalar.ofBits .f32 0x3D800000#32)))
    (broadcastTo S8x225x225 (shapeCast S1x225x225 (shapeCast S225x225 x4 shapeCasts_S225x225_S225x225) shapeCasts_S225x225_S1x225x225) broadcasts_S1x225x225_S8x225x225)

/-- The exponentials of the scores less their column maxima. -/
def stageExp (s : FVec Ideal S8x225x225 .f32) : FVec Ideal S8x225x225 .f32 :=
  exp (subf s (broadcastTo S8x225x225 (shapeCast S8x1x225
    (multiReduction .maximumf [1] S8x225 s 0xFF800000#32 reduces_S8x225x225_S8x225 (.inl rfl) rfl) shapeCasts_S8x225_S8x1x225) broadcasts_S8x1x225_S8x225x225))

/-- The exponentials over their column sums. -/
def stageQuot (e : FVec Ideal S8x225x225 .f32) : FVec Ideal S8x225x225 .f32 :=
  divf e (broadcastTo S8x225x225 (shapeCast S8x1x225
    (multiReduction .add [1] S8x225 e 0x00000000#32 reduces_S8x225x225_S8x225 (.inl rfl) rfl) shapeCasts_S8x225_S8x1x225) broadcasts_S8x1x225_S8x225x225)

/-- The stored probabilities are the three stages composed. -/
theorem pay1_eq (x0 : Vec Ideal S8x225x256 .f32) (x2 : Vec Ideal S8x256x225 .f32) (x4 : Vec Ideal S225x225 .f32) :
    k0_pay1 x0 x2 x4 = stageQuot (stageExp (stageScores x0 x2 x4)) := rfl

theorem stageScores_apply (x0 : Vec Ideal S8x225x256 .f32) (x2 : Vec Ideal S8x256x225 .f32) (x4 : Vec Ideal S225x225 .f32)
    (b : Fin 8) (n m : Fin 225) :
    stageScores x0 x2 x4 (ix3 b n m)
      = scores scaleK (fun n k => x0 (ix3 b n k)) (fun k m => x2 (ix3 b k m)) (fun n m => x4 (ix2 n m)) n m := by
  unfold stageScores
  rw [mulf_apply, mulf_apply, maskBcast_apply, matmul1_apply, shapeCast_self]
  rfl

theorem stageExp_apply (s : FVec Ideal S8x225x225 .f32) (b : Fin 8) (n m : Fin 225) :
    stageExp s (ix3 b n m) = weight negInf (fun n m => s (ix3 b n m)) n m := by
  unfold stageExp
  show Ideal.exp (s (ix3 b n m) - broadcastTo S8x225x225 _ broadcasts_S8x1x225_S8x225x225 (ix3 b n m)) = _
  rw [colBcast_apply]
  exact congrArg (fun z => Ideal.exp (s (ix3 b n m) - z)) (redMax_apply s _ _ b m)

theorem stageQuot_apply (e : FVec Ideal S8x225x225 .f32) (b : Fin 8) (n m : Fin 225) :
    stageQuot e (ix3 b n m) = Ideal.div (e (ix3 b n m)) (∑ k : Fin 225, e (ix3 b k m)) := by
  unfold stageQuot
  rw [divf_apply, colBcast_apply]
  exact congrArg (Ideal.div (e (ix3 b n m))) (redAdd_apply e _ _ b m)

/-- THE PROBABILITIES at (b, n, m): the column softmax of batch b's masked, scaled scores. -/
theorem pay1_apply (x0 : Vec Ideal S8x225x256 .f32) (x2 : Vec Ideal S8x256x225 .f32) (x4 : Vec Ideal S225x225 .f32)
    (b : Fin 8) (n m : Fin 225) :
    k0_pay1 x0 x2 x4 (ix3 b n m)
      = soft negInf (scores scaleK (fun n k => x0 (ix3 b n k)) (fun k m => x2 (ix3 b k m)) (fun n m => x4 (ix2 n m))) n m := by
  rw [pay1_eq, stageQuot_apply]
  simp only [stageExp_apply, stageScores_apply]
  rfl

/-- THE ATTENDED VALUES at (b, v, m): batch b's values weighted by its probabilities, summed over the centers. -/
theorem pay2_apply (x0 : Vec Ideal S8x225x256 .f32) (x2 : Vec Ideal S8x256x225 .f32) (x4 : Vec Ideal S225x225 .f32)
    (x1 : Vec Ideal S8x225x256 .f32) (b : Fin 8) (v : Fin 256) (m : Fin 225) :
    k0_pay2 x0 x2 x4 x1 (ix3 b v m)
      = attend (fun n v => x1 (ix3 b n v))
          (soft negInf (scores scaleK (fun n k => x0 (ix3 b n k)) (fun k m => x2 (ix3 b k m)) (fun n m => x4 (ix2 n m)))) v m := by
  unfold k0_pay2
  refine (matmul2_apply _ _ b v m).trans ?_
  unfold attend
  refine Finset.sum_congr rfl fun k _ => ?_
  rw [truncf_apply, truncf_apply, pay1_apply]

/-- The passed-through block is its operand. -/
theorem pay3_eq (x3 : Vec Ideal S8x256x225 .f32) : k0_pay3 x3 = x3 := by
  unfold k0_pay3
  exact shapeCast_self _ _

end Cert.KernelIdeal.Block

end
-- ==== Proof.KernelValue.lean ====
/-
  The kernel's two output arrays after the run, as whole-array functions of what the region finds.

  Grid point t holds batches 8t … 8t+7 of every batched operand and the whole mask. What it writes back is
  therefore block t of ONE function of the arrays: for the probabilities, `probs`; for the wide output, `merged`
  (rows 0–255 the attended values, rows 256–511 the passed-through array). The 64 blocks tile the batch axis
  (entry (b, ·, ·) lies in block b / 8), so the arrays end holding those functions everywhere. The line after
  the region only regroups the last axis of the wide output into 15 × 15.
-/
import proofs.«167485_j4939212390857_2_alg».proof.Proof.Gen.KernelIdeal.Frame
import proofs.«167485_j4939212390857_2_alg».proof.Proof.KernelBlock
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Block Cert.AttentionSpec Cert.ColumnAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## Where each window's block sits -/

/-- The printed index maps, decided over the 64 points: every batched window's block index is (t, 0, 0); the
    mask's is (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

theorem point_lt (t : Fin cfg0.N) : t.val < 64 := lt_of_lt_of_eq t.isLt N_0

/-- The batch that row b of block t holds. -/
def batchOf (t : Fin cfg0.N) (b : Fin 8) : Fin 512 :=
  ⟨t.val * 8 + b.val, by have h := point_lt t; have := b.isLt; omega⟩

/-- Block t of the first argument: its row (b, n, k) is the array's row (8t + b, n, k). -/
theorem blk0 (c : Dev nD) (t : Fin cfg0.N) (b : Fin 8) (n : Fin 225) (k : Fin 256) :
    iblk m c 0 t (ix3 b n k) = V m c main_arg0 (ix3 (batchOf t b) n k) := by
  obtain ⟨⟨e0, e1, e2⟩, -⟩ := idx_facts t
  show V m c main_arg0 (((cfg0.win 0).blk t).view.emb (ix3 b n k)) = V m c main_arg0 (ix3 (batchOf t b) n k)
  refine congrArg (V m c main_arg0) (funext fun a => Fin.ext ?_)
  match a with
  | ⟨0, _⟩ => show win0_0.index t (0 : Fin 3) * 8 + 1 * b.val = t.val * 8 + b.val; omega
  | ⟨1, _⟩ => show win0_0.index t (1 : Fin 3) * 225 + 1 * n.val = n.val; omega
  | ⟨2, _⟩ => show win0_0.index t (2 : Fin 3) * 256 + 1 * k.val = k.val; omega

/-- Block t of the second argument. -/
theorem blk1 (c : Dev nD) (t : Fin cfg0.N) (b : Fin 8) (n : Fin 225) (k : Fin 256) :
    iblk m c 1 t (ix3 b n k) = V m c main_arg1 (ix3 (batchOf t b) n k) := by
  obtain ⟨-, ⟨e0, e1, e2⟩, -⟩ := idx_facts t
  show V m c main_arg1 (((cfg0.win 1).blk t).view.emb (ix3 b n k)) = V m c main_arg1 (ix3 (batchOf t b) n k)
  refine congrArg (V m c main_arg1) (funext fun a => Fin.ext ?_)
  match a with
  | ⟨0, _⟩ => show win0_1.index t (0 : Fin 3) * 8 + 1 * b.val = t.val * 8 + b.val; omega
  | ⟨1, _⟩ => show win0_1.index t (1 : Fin 3) * 225 + 1 * n.val = n.val; omega
  | ⟨2, _⟩ => show win0_1.index t (2 : Fin 3) * 256 + 1 * k.val = k.val; omega

/-- Block t of the regrouped queries. -/
theorem blk2 (c : Dev nD) (t : Fin cfg0.N) (b : Fin 8) (k : Fin 256) (n : Fin 225) :
    iblk m c 2 t (ix3 b k n) = V m c main_v35 (ix3 (batchOf t b) k n) := by
  obtain ⟨-, -, ⟨e0, e1, e2⟩, -⟩ := idx_facts t
  show V m c main_v35 (((cfg0.win 2).blk t).view.emb (ix3 b k n)) = V m c main_v35 (ix3 (batchOf t b) k n)
  refine congrArg (V m c main_v35) (funext fun a => Fin.ext ?_)
  match a with
  | ⟨0, _⟩ => show win0_2.index t (0 : Fin 3) * 8 + 1 * b.val = t.val * 8 + b.val; omega
  | ⟨1, _⟩ => show win0_2.index t (1 : Fin 3) * 256 + 1 * k.val = k.val; omega
  | ⟨2, _⟩ => show win0_2.index t (2 : Fin 3) * 225 + 1 * n.val = n.val; omega

/-- Block t of the regrouped passed-through array. -/
theorem blk3 (c : Dev nD) (t : Fin cfg0.N) (b : Fin 8) (k : Fin 256) (n : Fin 225) :
    iblk m c 3 t (ix3 b k n) = V m c main_v36 (ix3 (batchOf t b) k n) := by
  obtain ⟨-, -, -, ⟨e0, e1, e2⟩, -⟩ := idx_facts t
  show V m c main_v36 (((cfg0.win 3).blk t).view.emb (ix3 b k n)) = V m c main_v36 (ix3 (batchOf t b) k n)
  refine congrArg (V m c main_v36) (funext fun a => Fin.ext ?_)
  match a with
  | ⟨0, _⟩ => show win0_3.index t (0 : Fin 3) * 8 + 1 * b.val = t.val * 8 + b.val; omega
  | ⟨1, _⟩ => show win0_3.index t (1 : Fin 3) * 256 + 1 * k.val = k.val; omega
  | ⟨2, _⟩ => show win0_3.index t (2 : Fin 3) * 225 + 1 * n.val = n.val; omega

/-- Every point sees the whole mask. -/
theorem blk4 (c : Dev nD) (t : Fin cfg0.N) (n k : Fin 225) :
    iblk m c 4 t (ix2 n k) = V m c main_v34 (ix2 n k) := by
  obtain ⟨-, -, -, -, ⟨e0, e1⟩, -⟩ := idx_facts t
  show V m c main_v34 (((cfg0.win 4).blk t).view.emb (ix2 n k)) = V m c main_v34 (ix2 n k)
  refine congrArg (V m c main_v34) (funext fun a => Fin.ext ?_)
  match a with
  | ⟨0, _⟩ => show win0_4.index t (0 : Fin 2) * 225 + 1 * n.val = n.val; omega
  | ⟨1, _⟩ => show win0_4.index t (1 : Fin 2) * 225 + 1 * k.val = k.val; omega

/-! ## One point's results, over blocks that are rows of whole arrays -/

section Point

variable (x0 x1 : Vec Ideal S8x225x256 .f32) (x2 x3 : Vec Ideal S8x256x225 .f32) (x4 : Vec Ideal S225x225 .f32)
  (A A1 : S512x225x256.Idx → EReal) (Q Q3 : S512x256x225.Idx → EReal) (K : S225x225.Idx → EReal) (Bt : Fin 8 → Fin 512)

/-- The stored probabilities of a block whose rows are rows of whole arrays are those arrays' probabilities. -/
theorem point_probs (h0 : ∀ b n k, x0 (ix3 b n k) = A (ix3 (Bt b) n k)) (h2 : ∀ b k n, x2 (ix3 b k n) = Q (ix3 (Bt b) k n))
    (h4 : ∀ n k, x4 (ix2 n k) = K (ix2 n k)) (b : Fin 8) (n k : Fin 225) :
    k0_pay1 x0 x2 x4 (ix3 b n k) = probsAt A Q K (Bt b) n k := by
  rw [pay1_apply]
  unfold probsAt
  simp only [h0, h2, h4]

/-- Likewise the attended values. -/
theorem point_attend (h0 : ∀ b n k, x0 (ix3 b n k) = A (ix3 (Bt b) n k)) (h1 : ∀ b n k, x1 (ix3 b n k) = A1 (ix3 (Bt b) n k))
    (h2 : ∀ b k n, x2 (ix3 b k n) = Q (ix3 (Bt b) k n)) (h4 : ∀ n k, x4 (ix2 n k) = K (ix2 n k)) (b : Fin 8) (v : Fin 256) (k : Fin 225) :
    k0_pay2 x0 x2 x4 x1 (ix3 b v k) = attend (fun n v => A1 (ix3 (Bt b) n v)) (probsAt A Q K (Bt b)) v k := by
  rw [pay2_apply]
  unfold probsAt
  simp only [h0, h1, h2, h4]

/-- The wide output's block by coordinates: an attended row below 256, a passed-through row from 256 on. -/
def blockMergedAt (b : Fin 8) (r : Fin 512) (k : Fin 225) : EReal :=
  if h : r.val < 256 then k0_pay2 x0 x2 x4 x1 (ix3 b (⟨r.val, h⟩ : Fin 256) k)
  else x3 (ix3 b (⟨r.val - 256, by have := r.isLt; omega⟩ : Fin 256) k)

/-- The same as a function of the block's index. -/
def blockMerged : S8x512x225.Idx → EReal := fun y => blockMergedAt x0 x1 x2 x3 x4 (y 0) (y 1) (y 2)

/-- The two stores of the wide output (rows 256–511 last, rows 0–255 first) leave that function. -/
theorem out5_apply (y : S8x512x225.Idx) : out0_5 x0 x1 x2 x3 x4 y = blockMerged x0 x1 x2 x3 x4 y := by
  unfold out0_5
  simp only [View.ld_unit_zero (S := S8x225x256) hz3, View.ld_unit_zero (S := S8x256x225) hz3, View.ld_unit_zero (S := S225x225) hz2]
  refine View.canon_apply_of_pieces (Val := Elt Ideal) (e := .f32) (blockMerged x0 x1 x2 x3 x4) _ ?_ y (cover0_5 _ _ y)
  intro p hp x
  simp only [List.mem_cons, List.mem_nil_iff, or_false] at hp
  rcases hp with rfl | rfl
  · -- the rows from 256 on: the passed-through block
    have h1 : ¬ ((r0_5.emb x) 1).val < 256 := by
      show ¬ (256 + 1 * (x 1).val < 256); omega
    show k0_pay3 x3 x = blockMergedAt x0 x1 x2 x3 x4 ((r0_5.emb x) 0) ((r0_5.emb x) 1) ((r0_5.emb x) 2)
    unfold blockMergedAt
    rw [dif_neg h1, pay3_eq]
    refine congrArg x3 (funext fun a => Fin.ext ?_)
    match a with
    | ⟨0, _⟩ => show (x 0).val = 0 + 1 * (x 0).val; omega
    | ⟨1, _⟩ => show (x 1).val = 256 + 1 * (x 1).val - 256; omega
    | ⟨2, _⟩ => show (x 2).val = 0 + 1 * (x 2).val; omega
  · -- the rows below 256: the attended values
    have hx : (x 1).val < 256 := (x 1).isLt
    have h1 : ((r0_4.emb x) 1).val < 256 := by
      show 0 + 1 * (x 1).val < 256; omega
    show k0_pay2 x0 x2 x4 x1 x = blockMergedAt x0 x1 x2 x3 x4 ((r0_4.emb x) 0) ((r0_4.emb x) 1) ((r0_4.emb x) 2)
    unfold blockMergedAt
    rw [dif_pos h1]
    refine congrArg (k0_pay2 x0 x2 x4 x1) (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega

/-- The wide output's block, when the blocks are rows of whole arrays, is rows of `merged`. -/
theorem point_merged (h0 : ∀ b n k, x0 (ix3 b n k) = A (ix3 (Bt b) n k)) (h1 : ∀ b n k, x1 (ix3 b n k) = A1 (ix3 (Bt b) n k))
    (h2 : ∀ b k n, x2 (ix3 b k n) = Q (ix3 (Bt b) k n)) (h3 : ∀ b k n, x3 (ix3 b k n) = Q3 (ix3 (Bt b) k n))
    (h4 : ∀ n k, x4 (ix2 n k) = K (ix2 n k)) (b : Fin 8) (r : Fin 512) (k : Fin 225) :
    blockMergedAt x0 x1 x2 x3 x4 b r k = mergedAt A A1 Q Q3 K (Bt b) r k := by
  unfold blockMergedAt mergedAt
  by_cases h : r.val < 256
  · rw [dif_pos h, dif_pos h]
    exact point_attend x0 x1 x2 x4 A A1 Q K Bt h0 h1 h2 h4 b _ k
  · rw [dif_neg h, dif_neg h]
    exact h3 b _ k

end Point

/-! ## What each point writes back -/

/-- Point t writes back block t of the probabilities of the arrays as the region finds them. -/
theorem flushed6_eq (c : Dev nD) (t : Fin cfg0.N) :
    (dats m 0 c).flushed 6 t
      = ((cfg0.win 6).blk t).view.read (Elt Ideal) (probs (V m c main_arg0) (V m c main_v35) (V m c main_v34)) := by
  show (cfg0.win 6).cut (grid0.coords t) ((dats m 0 c).after 6 t) = _
  rw [after0_6]
  unfold out0_6
  rw [View.canon_unit_zero hz3]
  simp only [View.ld_unit_zero (S := S8x225x256) hz3, View.ld_unit_zero (S := S8x256x225) hz3, View.ld_unit_zero (S := S225x225) hz2]
  obtain ⟨-, -, -, -, -, -, ⟨e0, e1, e2⟩⟩ := idx_facts t
  funext j
  refine (congrArg (k0_pay1 (iblk m c 0 t) (iblk m c 2 t) (iblk m c 4 t)) (eq_ix3 (n0 := 8) (n1 := 225) (n2 := 225) j)).trans ?_
  refine (point_probs (iblk m c 0 t) (iblk m c 2 t) (iblk m c 4 t) (V m c main_arg0) (V m c main_v35) (V m c main_v34) (batchOf t)
    (blk0 m c t) (blk2 m c t) (blk4 m c t) (j 0) (j 1) (j 2)).trans ?_
  refine (probs_apply (V m c main_arg0) (V m c main_v35) (V m c main_v34) (batchOf t (j 0)) (j 1) (j 2)).symm.trans ?_
  show probs (V m c main_arg0) (V m c main_v35) (V m c main_v34) (ix3 (batchOf t (j 0)) (j 1) (j 2))
    = probs (V m c main_arg0) (V m c main_v35) (V m c main_v34) (((cfg0.win 6).blk t).view.emb j)
  refine congrArg (probs (V m c main_arg0) (V m c main_v35) (V m c main_v34)) (funext fun a => Fin.ext ?_)
  match a with
  | ⟨0, _⟩ => show t.val * 8 + (j 0).val = win0_6.index t (0 : Fin 3) * 8 + 1 * (j 0).val; omega
  | ⟨1, _⟩ => show (j 1).val = win0_6.index t (1 : Fin 3) * 225 + 1 * (j 1).val; omega
  | ⟨2, _⟩ => show (j 2).val = win0_6.index t (2 : Fin 3) * 225 + 1 * (j 2).val; omega

/-- Point t writes back block t of the wide output. -/
theorem flushed5_eq (c : Dev nD) (t : Fin cfg0.N) :
    (dats m 0 c).flushed 5 t
      = ((cfg0.win 5).blk t).view.read (Elt Ideal)
          (merged (V m c main_arg0) (V m c main_arg1) (V m c main_v35) (V m c main_v36) (V m c main_v34)) := by
  show (cfg0.win 5).cut (grid0.coords t) ((dats m 0 c).after 5 t) = _
  rw [after0_5]
  obtain ⟨-, -, -, -, -, ⟨e0, e1, e2⟩, -⟩ := idx_facts t
  funext j
  refine (out5_apply (iblk m c 0 t) (iblk m c 1 t) (iblk m c 2 t) (iblk m c 3 t) (iblk m c 4 t) _).trans ?_
  refine (point_merged (iblk m c 0 t) (iblk m c 1 t) (iblk m c 2 t) (iblk m c 3 t) (iblk m c 4 t)
    (V m c main_arg0) (V m c main_arg1) (V m c main_v35) (V m c main_v36) (V m c main_v34) (batchOf t)
    (blk0 m c t) (blk1 m c t) (blk2 m c t) (blk3 m c t) (blk4 m c t) (j 0) (j 1) (j 2)).trans ?_
  refine (merged_apply (V m c main_arg0) (V m c main_arg1) (V m c main_v35) (V m c main_v36) (V m c main_v34) (batchOf t (j 0)) (j 1) (j 2)).symm.trans ?_
  show merged (V m c main_arg0) (V m c main_arg1) (V m c main_v35) (V m c main_v36) (V m c main_v34) (ix3 (batchOf t (j 0)) (j 1) (j 2))
    = merged (V m c main_arg0) (V m c main_arg1) (V m c main_v35) (V m c main_v36) (V m c main_v34) (((cfg0.win 5).blk t).view.emb j)
  refine congrArg (merged (V m c main_arg0) (V m c main_arg1) (V m c main_v35) (V m c main_v36) (V m c main_v34)) (funext fun a => Fin.ext ?_)
  match a with
  | ⟨0, _⟩ => show t.val * 8 + (j 0).val = win0_5.index t (0 : Fin 3) * 8 + 1 * (j 0).val; omega
  | ⟨1, _⟩ => show (j 1).val = win0_5.index t (1 : Fin 3) * 512 + 1 * (j 1).val; omega
  | ⟨2, _⟩ => show (j 2).val = win0_5.index t (2 : Fin 3) * 225 + 1 * (j 2).val; omega

/-! ## The blocks tile the arrays -/

theorem mem_blk6 (t : Fin cfg0.N) (i : S512x225x225.Idx) :
    i ∈ ((cfg0.win 6).blk t).view.set ↔ ∀ a : Fin 3, win0_6.index t a * S8x225x225.size a ≤ (i a).val ∧ (i a).val < win0_6.index t a * S8x225x225.size a + S8x225x225.size a := by
  show i ∈ ((View.whole main_v37_1).slice (win0_6.rect t)).set ↔ _
  rw [View.set_slice_whole, Rect.mem_set_unit]
  exact Iff.rfl

theorem mem_blk5 (t : Fin cfg0.N) (i : S512x512x225.Idx) :
    i ∈ ((cfg0.win 5).blk t).view.set ↔ ∀ a : Fin 3, win0_5.index t a * S8x512x225.size a ≤ (i a).val ∧ (i a).val < win0_5.index t a * S8x512x225.size a + S8x512x225.size a := by
  show i ∈ ((View.whole main_v37_0).slice (win0_5.rect t)).set ↔ _
  rw [View.set_slice_whole, Rect.mem_set_unit]
  exact Iff.rfl

/-- Entry (b, ·, ·) of the probabilities lies in the block of point b / 8. -/
theorem cover6 (i : S512x225x225.Idx) : ∃ t : Fin cfg0.N, (cfg0.win 6).flush t = true ∧ i ∈ ((cfg0.win 6).blk t).view.set := by
  have hi0 : (i 0).val < 512 := (i 0).isLt
  have hi1 : (i 1).val < 225 := (i 1).isLt
  have hi2 : (i 2).val < 225 := (i 2).isLt
  have hN : (i 0).val / 8 < cfg0.N := lt_of_lt_of_eq (by omega : (i 0).val / 8 < 64) N_0.symm
  obtain ⟨-, -, -, -, -, -, ⟨e0, e1, e2⟩⟩ := idx_facts ⟨(i 0).val / 8, hN⟩
  refine ⟨⟨(i 0).val / 8, hN⟩, flush0_6 _, ?_⟩
  rw [mem_blk6]
  intro a
  match a with
  | ⟨0, _⟩ => show win0_6.index ⟨(i 0).val / 8, hN⟩ (0 : Fin 3) * 8 ≤ (i 0).val ∧ (i 0).val < win0_6.index ⟨(i 0).val / 8, hN⟩ (0 : Fin 3) * 8 + 8; simp only [] at e0; omega
  | ⟨1, _⟩ => show win0_6.index ⟨(i 0).val / 8, hN⟩ (1 : Fin 3) * 225 ≤ (i 1).val ∧ (i 1).val < win0_6.index ⟨(i 0).val / 8, hN⟩ (1 : Fin 3) * 225 + 225; omega
  | ⟨2, _⟩ => show win0_6.index ⟨(i 0).val / 8, hN⟩ (2 : Fin 3) * 225 ≤ (i 2).val ∧ (i 2).val < win0_6.index ⟨(i 0).val / 8, hN⟩ (2 : Fin 3) * 225 + 225; omega

/-- Likewise the wide output. -/
theorem cover5 (i : S512x512x225.Idx) : ∃ t : Fin cfg0.N, (cfg0.win 5).flush t = true ∧ i ∈ ((cfg0.win 5).blk t).view.set := by
  have hi0 : (i 0).val < 512 := (i 0).isLt
  have hi1 : (i 1).val < 512 := (i 1).isLt
  have hi2 : (i 2).val < 225 := (i 2).isLt
  have hN : (i 0).val / 8 < cfg0.N := lt_of_lt_of_eq (by omega : (i 0).val / 8 < 64) N_0.symm
  obtain ⟨-, -, -, -, -, ⟨e0, e1, e2⟩, -⟩ := idx_facts ⟨(i 0).val / 8, hN⟩
  refine ⟨⟨(i 0).val / 8, hN⟩, flush0_5 _, ?_⟩
  rw [mem_blk5]
  intro a
  match a with
  | ⟨0, _⟩ => show win0_5.index ⟨(i 0).val / 8, hN⟩ (0 : Fin 3) * 8 ≤ (i 0).val ∧ (i 0).val < win0_5.index ⟨(i 0).val / 8, hN⟩ (0 : Fin 3) * 8 + 8; simp only [] at e0; omega
  | ⟨1, _⟩ => show win0_5.index ⟨(i 0).val / 8, hN⟩ (1 : Fin 3) * 512 ≤ (i 1).val ∧ (i 1).val < win0_5.index ⟨(i 0).val / 8, hN⟩ (1 : Fin 3) * 512 + 512; omega
  | ⟨2, _⟩ => show win0_5.index ⟨(i 0).val / 8, hN⟩ (2 : Fin 3) * 225 ≤ (i 2).val ∧ (i 2).val < win0_5.index ⟨(i 0).val / 8, hN⟩ (2 : Fin 3) * 225 + 225; omega

/-! ## The arrays after the run -/

/-- The probabilities' array ends holding `probs` of the arrays the region found. -/
theorem final6 (c : Dev nD) :
    (dats m 0 c).arrAt 6 cfg0.N = probs (V m c main_arg0) (V m c main_v35) (V m c main_v34) :=
  (dats m 0 c).arrAt_eq_of_cover 6 _ (fun t _ => flushed6_eq m c t) cover6

/-- The wide output's array ends holding `merged` of them. -/
theorem final5 (c : Dev nD) :
    (dats m 0 c).arrAt 5 cfg0.N
      = merged (V m c main_arg0) (V m c main_arg1) (V m c main_v35) (V m c main_v36) (V m c main_v34) :=
  (dats m 0 c).arrAt_eq_of_cover 5 _ (fun t _ => flushed5_eq m c t) cover5

end Cert.KernelIdeal.Whole

end
-- ==== Proof.KernelRun.lean ====
/-
  The kernel's run with each result named.

  Before the region the program regroups the last two axes (15 × 15) of the third and fourth arguments into one of
  225; after it, it regroups the last axis of the wide output back into 15 × 15. So the first result is `merged` of
  the arguments regrouped that way, with its own last axis regrouped; the second is `probs`; the four arguments end
  as they were. The decay mask is whatever the lines before the region leave in its buffer; it is compared with the
  reference's mask elsewhere.
-/
import proofs.«167485_j4939212390857_2_alg».proof.Proof.KernelValue

set_option maxRecDepth 16384

noncomputable section

namespace Cert.KernelIdeal.Whole

open Cert.KernelIdeal Cert.KernelIdeal.Gen Cert.AttentionSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The mask as the lines before the region leave it. -/
abbrev maskK (c : Dev nD) : S225x225.Idx → EReal := V m c main_v34

/-- The region finds the third argument regrouped to [512, 256, 225]. -/
theorem V_v35 (c : Dev nD) :
    (V m c main_v35 : S512x256x225.Idx → EReal)
      = shapeCast S512x256x225 (m ((c.tc : Thread nD τ).loc main_arg2)) shapeCasts_S512x256x15x15_S512x256x225 := by
  show StableHlo.after hostOps0 (fun b => m (c, b)) (Proc.devRef .tc main_v35) = _
  after_results
  rfl

/-- And the fourth likewise. -/
theorem V_v36 (c : Dev nD) :
    (V m c main_v36 : S512x256x225.Idx → EReal)
      = shapeCast S512x256x225 (m ((c.tc : Thread nD τ).loc main_arg3)) shapeCasts_S512x256x15x15_S512x256x225 := by
  show StableHlo.after hostOps0 (fun b => m (c, b)) (Proc.devRef .tc main_v36) = _
  after_results
  rfl

/-- The line after the region regroups the wide output's last axis into 15 × 15. -/
theorem tail_v38 (c : Dev nD) :
    Pipeline.afterTail₀ cfgs (dats m) 0 (V0 m) [hostOps1] c main_v38
      = shapeCast S512x512x15x15 ((dats m 0 c).arrAt 5 cfg0.N) shapeCasts_S512x512x225_S512x512x15x15 := by
  unfold Pipeline.afterTail₀
  show StableHlo.after hostOps1 _ (Proc.devRef .tc main_v38) = _
  after_results
  exact congrArg (fun z : S512x512x225.Idx → EReal => shapeCast S512x512x15x15 z shapeCasts_S512x512x225_S512x512x15x15)
    (Pipeline.withArrays_arr spec0 launch0.win.arr_inj c (V0 m c) (fun w => (dats m 0 c).arrAt w cfg0.N) 5)

/-- The first result after the run. -/
theorem result0 (c : Dev nD) :
    Pipeline.afterTail₀ cfgs (dats m) 0 (V0 m) [hostOps1] c main_v38
      = shapeCast S512x512x15x15
          (merged (m ((c.tc : Thread nD τ).loc main_arg0)) (m ((c.tc : Thread nD τ).loc main_arg1))
            (shapeCast S512x256x225 (m ((c.tc : Thread nD τ).loc main_arg2)) shapeCasts_S512x256x15x15_S512x256x225)
            (shapeCast S512x256x225 (m ((c.tc : Thread nD τ).loc main_arg3)) shapeCasts_S512x256x15x15_S512x256x225)
            (maskK m c))
          shapeCasts_S512x512x225_S512x512x15x15 := by
  rw [tail_v38, final5, V_main_arg0, V_main_arg1, V_v35, V_v36]

/-- The second result after the run. -/
theorem result1 (c : Dev nD) :
    (dats m 0 c).arrAt 6 cfg0.N
      = probs (m ((c.tc : Thread nD τ).loc main_arg0))
          (shapeCast S512x256x225 (m ((c.tc : Thread nD τ).loc main_arg2)) shapeCasts_S512x256x15x15_S512x256x225)
          (maskK m c) := by
  rw [final6, V_main_arg0, V_v35]

/-- THE RUN: every weakly fair execution terminates with the two results at those functions and the arguments kept. -/
theorem run : θ_run defs (onTc (τ := τ) (main (F := Ideal))) ⟨m, fun _ => 0, ρ⟩ fun r => ∀ c : Dev nD,
      r.2.mem ((c.tc : Thread nD τ).loc main_v38)
        = shapeCast S512x512x15x15
            (merged (m ((c.tc : Thread nD τ).loc main_arg0)) (m ((c.tc : Thread nD τ).loc main_arg1))
              (shapeCast S512x256x225 (m ((c.tc : Thread nD τ).loc main_arg2)) shapeCasts_S512x256x15x15_S512x256x225)
              (shapeCast S512x256x225 (m ((c.tc : Thread nD τ).loc main_arg3)) shapeCasts_S512x256x15x15_S512x256x225)
              (maskK m c))
            shapeCasts_S512x512x225_S512x512x15x15
      ∧ r.2.mem ((c.tc : Thread nD τ).loc main_v37_1)
        = probs (m ((c.tc : Thread nD τ).loc main_arg0))
            (shapeCast S512x256x225 (m ((c.tc : Thread nD τ).loc main_arg2)) shapeCasts_S512x256x15x15_S512x256x225)
            (maskK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v38 (Pipeline.mem_restRefs_of main_v38 (by decide) (by decide))).trans (result0 m c),
      ((h c).1 6).trans (result1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference's two results are the same whole-array functions.

  Read one operation at a time, the reference forms for each batch b the scores (A_b · Q_b) / 16 · K, their
  softmax down the columns — with one more maximum against minus infinity, which changes nothing —, the attended
  values, and joins them with the fourth argument along the rows after regrouping the last axis into 15 × 15.
  Dividing by sixteen is multiplying by a sixteenth on every extended real, so the probabilities are `probs`;
  and the join of the regrouped attended values with the fourth argument is the regrouping of `merged`.
-/
import proofs.«167485_j4939212390857_2_alg».proof.Proof.RefRead
import proofs.«167485_j4939212390857_2_alg».proof.Proof.AttentionSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.AttentionSpec Cert.ColumnAttention
open Idealize.ShloMosaic Idealize.ShloMosaic.ValueIdx

variable (a0 a1 : (⟨S512x225x256, .f32⟩ : BufTy).Contents (Elt Ideal)) (a2 a3 : (⟨S512x256x15x15, .f32⟩ : BufTy).Contents (Elt Ideal))

/-- The mask as the reference computes it. -/
abbrev maskR : S225x225.Idx → EReal := val_main_v34 (F := Ideal)

/-- The regrouped queries. -/
abbrev queriesR : S512x256x225.Idx → EReal := val_main_v35 (F := Ideal) a2

/-! ## Where the layout steps read -/

theorem lidx36 (b : Fin 512) (n m : Fin 225) (k : Fin 256) : lidx_main_v36 (ix3 b n m) k = ix3 b n k :=
  funext fun a => Fin.ext (by match a with | ⟨0, _⟩ => rfl | ⟨1, _⟩ => rfl | ⟨2, _⟩ => rfl)
theorem ridx36 (b : Fin 512) (n m : Fin 225) (k : Fin 256) : ridx_main_v36 (ix3 b n m) k = ix3 b k m :=
  funext fun a => Fin.ext (by match a with | ⟨0, _⟩ => rfl | ⟨1, _⟩ => rfl | ⟨2, _⟩ => rfl)
theorem idx40_39 (b : Fin 512) (n m : Fin 225) : idx_main_v39 (idx_main_v40 (ix3 b n m)) = ix2 n m :=
  funext fun a => Fin.ext (by match a with | ⟨0, _⟩ => rfl | ⟨1, _⟩ => rfl)
theorem idx46_45 (b : Fin 512) (n m : Fin 225) : idx_main_v45 (idx_main_v46 (ix3 b n m)) = ix2 b m :=
  funext fun a => Fin.ext (by match a with | ⟨0, _⟩ => rfl | ⟨1, _⟩ => rfl)
theorem idx51_50 (b : Fin 512) (n m : Fin 225) : idx_main_v50 (idx_main_v51 (ix3 b n m)) = ix2 b m :=
  funext fun a => Fin.ext (by match a with | ⟨0, _⟩ => rfl | ⟨1, _⟩ => rfl)
theorem idx49 (b : Fin 512) (m k : Fin 225) : idx_main_v49 (ix2 b m) k = ix3 b k m :=
  funext fun a => Fin.ext (by match a with | ⟨0, _⟩ => rfl | ⟨1, _⟩ => rfl | ⟨2, _⟩ => rfl)
theorem lidx53 (b : Fin 512) (v : Fin 256) (m k : Fin 225) : lidx_main_v53 (ix3 b v m) k = ix3 b k v :=
  funext fun a => Fin.ext (by match a with | ⟨0, _⟩ => rfl | ⟨1, _⟩ => rfl | ⟨2, _⟩ => rfl)
theorem ridx53 (b : Fin 512) (v : Fin 256) (m k : Fin 225) : ridx_main_v53 (ix3 b v m) k = ix3 b k m :=
  funext fun a => Fin.ext (by match a with | ⟨0, _⟩ => rfl | ⟨1, _⟩ => rfl | ⟨2, _⟩ => rfl)

/-! ## The probabilities -/

/-- The masked, scaled scores at (b, n, m): the quotient by sixteen is the product with a sixteenth. -/
theorem ref_scores (b : Fin 512) (n m : Fin 225) :
    val_main_v41 (F := Ideal) a0 a2 (ix3 b n m)
      = scores scaleK (fun n c => a0 (ix3 b n c)) (fun c m => queriesR a2 (ix3 b c m)) (fun n m => maskR (ix2 n m)) n m := by
  rw [val_main_v41_apply, val_main_v38_apply, val_main_v36_apply, val_main_v37_apply, val_main_cst_1_apply,
    val_main_v40_apply, val_main_v39_apply, idx40_39]
  simp only [lidx36, ridx36]
  show Ideal.div (∑ k : Fin 256, a0 (ix3 b n k) * val_main_v35 (F := Ideal) a2 (ix3 b k m)) (Ideal.ofBits .f32 0x41800000#32)
      * val_main_v34 (F := Ideal) (ix2 n m) = _
  rw [div_sixteen]
  rfl

/-- The column maximum at (b, m): the reduction folds `max` from minus infinity, and the maximum taken once more
    against minus infinity is absorbed. -/
theorem ref_max (b : Fin 512) (m : Fin 225) :
    val_main_v44 (F := Ideal) a0 a2 (ix2 b m)
      = colMax negInf (fun n m => val_main_v41 (F := Ideal) a0 a2 (ix3 b n m)) m := by
  rw [val_main_v44_apply, val_main_v43_apply, val_main_cst_3_apply]
  unfold val_main_v42
  generalize val_main_v41 (F := Ideal) a0 a2 = S
  have hR : S512x225x225.Reduces [1] S512x225 := by decide
  have hfold := Host.reduce_eq_fold_single (FloatOps.maximumf (F := Ideal) (φ := .f32)) S (val_main_cst_2 (F := Ideal))
    reducesTo_S512x225x225_S512x225_d1 hR h_S_ (ix2 b m)
  have e : (S ∘ hR.lift (ix2 b m)) = fun n : Fin 225 => S (ix3 b n m) :=
    funext fun n => congrArg S (funext fun a => Fin.ext (by
      match a with
      | ⟨0, _⟩ => rfl
      | ⟨1, _⟩ => rfl
      | ⟨2, _⟩ => rfl))
  rw [e] at hfold
  refine (congrArg (FloatOps.maximumf (F := Ideal) (φ := .f32) (FloatOps.ofBits .f32 0xFF800000#32)) hfold).trans ?_
  exact max_fold_start negInf _

/-- The unnormalised weight at (b, n, m). -/
theorem ref_weight (b : Fin 512) (n m : Fin 225) :
    val_main_v48 (F := Ideal) a0 a2 (ix3 b n m)
      = weight negInf (fun n m => val_main_v41 (F := Ideal) a0 a2 (ix3 b n m)) n m := by
  rw [val_main_v48_apply, val_main_v47_apply, val_main_v46_apply, val_main_v45_apply, idx46_45, ref_max]
  rfl

/-- THE PROBABILITIES at (b, n, m). -/
theorem ref_probs_apply (b : Fin 512) (n m : Fin 225) :
    val_main_v52 (F := Ideal) a0 a2 (ix3 b n m) = probsAt a0 (queriesR a2) maskR b n m := by
  rw [val_main_v52_apply, val_main_v51_apply, val_main_v50_apply, idx51_50, val_main_v49_apply, val_main_cst_4_apply]
  simp only [idx49, ref_weight, ref_scores]
  show Ideal.div _ (Ideal.ofBits .f32 0x00000000#32 + _) = _
  rw [Ideal.ofBits_zero_f32, zero_add]
  rfl

/-- The reference's second result is `probs` of its arguments. -/
theorem ref_probs : val_main_v52 (F := Ideal) a0 a2 = probs a0 (queriesR a2) maskR := by
  funext i
  obtain ⟨b, n, m, rfl⟩ : ∃ (b : Fin 512) (n m : Fin 225), i = ix3 b n m := ⟨i 0, i 1, i 2, eq_ix3 i⟩
  rw [probs_apply]
  exact ref_probs_apply a0 a2 b n m

/-! ## The attended values joined with the fourth argument -/

/-- The attended values at (b, v, m). -/
theorem ref_attend_apply (b : Fin 512) (v : Fin 256) (m : Fin 225) :
    val_main_v53 (F := Ideal) a0 a1 a2 (ix3 b v m)
      = attend (fun n v => a1 (ix3 b n v)) (probsAt a0 (queriesR a2) maskR b) v m := by
  rw [val_main_v53_apply]
  simp only [lidx53, ridx53, ref_probs_apply]
  rfl

/-- The fourth argument regrouped to [512, 256, 225]. -/
abbrev passR : S512x256x225.Idx → EReal := shapeCast S512x256x225 a3 shapeCasts_S512x256x15x15_S512x256x225

theorem passR_apply (b : Fin 512) (v : Fin 256) (h w : Fin 15) (hw : Fin 225) (e : hw.val = h.val * 15 + w.val) :
    passR a3 (ix3 b v hw) = a3 (ix4 b v h w) :=
  shapeCast_apply a3 shapeCasts_S512x256x15x15_S512x256x225 (ix3 b v hw) (ix4 b v h w) (by
    rw [Shape.rowMajor_val_four, Shape.rowMajor_val_three]
    show ((b.val * 256 + v.val) * 15 + h.val) * 15 + w.val = (b.val * 256 + v.val) * 225 + hw.val
    omega)

theorem idx54 (b : Fin 512) (v : Fin 256) (h w : Fin 15) (hw : Fin 225) (e : hw.val = h.val * 15 + w.val) :
    idx_main_v54 (ix4 b v h w) = ix3 b v hw :=
  funext fun a => Fin.ext (by
    have hb := b.isLt; have hv := v.isLt; have hh := h.isLt; have hw' := w.isLt
    match a with
    | ⟨0, _⟩ => show (((b.val * 256 + v.val) * 15 + h.val) * 15 + w.val) / 57600 = b.val; omega
    | ⟨1, _⟩ => show (((b.val * 256 + v.val) * 15 + h.val) * 15 + w.val) / 225 % 256 = v.val; omega
    | ⟨2, _⟩ => show (((b.val * 256 + v.val) * 15 + h.val) * 15 + w.val) % 225 = hw.val; omega)

/-- The reference's first result is `merged` with its last axis regrouped into 15 × 15. -/
theorem ref_merged :
    val_main_v55 (F := Ideal) a0 a1 a2 a3
      = shapeCast S512x512x15x15 (merged a0 a1 (queriesR a2) (passR a3) maskR)
          (by decide : (⟨3, ![512, 512, 225]⟩ : Shape).ShapeCasts S512x512x15x15) := by
  funext i
  obtain ⟨b, r, h, w, rfl⟩ : ∃ (b r : Fin 512) (h w : Fin 15), i = ix4 b r h w := ⟨i 0, i 1, i 2, i 3, eq_ix4 i⟩
  have hb := b.isLt; have hr := r.isLt; have hh := h.isLt; have hw' := w.isLt
  have hhw : h.val * 15 + w.val < 225 := by omega
  refine Eq.trans ?_ (shapeCast_apply _ _ (ix4 b r h w) (ix3 b r (⟨h.val * 15 + w.val, hhw⟩ : Fin 225)) (by
    rw [Shape.rowMajor_val_three, Shape.rowMajor_val_four]
    show (b.val * 512 + r.val) * 225 + (h.val * 15 + w.val) = ((b.val * 512 + r.val) * 15 + h.val) * 15 + w.val
    omega)).symm
  rw [merged_apply]
  unfold val_main_v55 mergedAt
  by_cases hlt : r.val < 256
  · rw [dif_pos hlt]
    refine (concatenate_pair_apply_left (t := S512x512x15x15) (s₁ := S512x256x15x15) (s₂ := S512x256x15x15) (1 : Fin 4)
      (val_main_v54 (F := Ideal) a0 a1 a2) a3 concatenates_S512x256x15x15_S512x256x15x15_S512x512x15x15_d1
      (ix4 b r h w) rfl (ix4 b (⟨r.val, hlt⟩ : Fin 256) h w) (fun a => by
        match a with
        | ⟨0, _⟩ => rfl
        | ⟨1, _⟩ => rfl
        | ⟨2, _⟩ => rfl
        | ⟨3, _⟩ => rfl)).trans ?_
    rw [val_main_v54_apply, idx54 b ⟨r.val, hlt⟩ h w ⟨h.val * 15 + w.val, hhw⟩ rfl]
    exact ref_attend_apply a0 a1 a2 b _ _
  · rw [dif_neg hlt]
    refine (concatenate_pair_apply_right (t := S512x512x15x15) (s₁ := S512x256x15x15) (s₂ := S512x256x15x15) (1 : Fin 4)
      (val_main_v54 (F := Ideal) a0 a1 a2) a3 concatenates_S512x256x15x15_S512x256x15x15_S512x512x15x15_d1
      (ix4 b r h w) rfl rfl (ix4 b (⟨r.val - 256, by omega⟩ : Fin 256) h w) (fun a ha => by
        match a with
        | ⟨0, _⟩ => rfl
        | ⟨1, _⟩ => exact absurd (Fin.ext rfl) ha
        | ⟨2, _⟩ => rfl
        | ⟨3, _⟩ => rfl) (by show r.val - 256 + 256 = r.val; omega)).trans ?_
    exact (passR_apply a3 b _ h w ⟨h.val * 15 + w.val, hhw⟩ rfl).symm

end Cert.ReferenceIdeal.RefValue

end
-- ==== Proof.MaskBridge.lean ====
/-
  The two programs compute ONE decay mask.

  Both build it on the host by the same chain — the 15 × 15 coordinate table, the absolute coordinate differences
  |dx| and |dy| of every pair of the 225 positions, and 0.92^|dx| · 0.92^|dy| — with no argument of the program in
  it. So the buffer the kernel's region finds the mask in holds exactly the term the reference's operations compose:
  evaluate the kernel's host lines one at a time and the two closed terms coincide.
-/
import proofs.«167485_j4939212390857_2_alg».proof.Proof.Gen.KernelIdeal.Frame
import proofs.«167485_j4939212390857_2_alg».proof.Proof.RefRead
import Idealize.ShloMosaic.Lib.StableHlo.Run

noncomputable section

namespace Cert.MaskBridge

open Idealize.ShloMosaic Idealize.ShloMosaic.TcCoe Idealize.SL.Sem Idealize.ShloMosaic.StableHlo

set_option maxRecDepth 65536 in
set_option maxHeartbeats 24800000 in
/-- The mask the kernel's region finds is the reference's mask term. -/
theorem mask_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v34 : Cert.KernelIdeal.S225x225.Idx → EReal)
      = Cert.ReferenceIdeal.ReadP.val_main_v34 (F := Ideal) := by
  show StableHlo.after Cert.KernelIdeal.Gen.hostOps0 (fun b => m (c, b)) (Proc.devRef .tc Cert.KernelIdeal.main_v34) = _
  after_results
  rfl

end Cert.MaskBridge

end
-- ==== Proof.Bridge.lean ====
/-
  The two idealized programs end with equal results.

  The kernel's run leaves `merged` (regrouped) and `probs` of its arguments and of the mask its host lines build; the
  reference's run leaves the operations' composed terms, which read one operation at a time are `merged` (regrouped)
  and `probs` of ITS arguments and ITS mask. The arguments agree by hypothesis and the two masks are one term, so
  the results are equal, entry by entry, on the extended reals. Nothing here uses that the inputs are finite: the only
  laws between the two spellings — a sum in another order, a quotient by sixteen against a product with a sixteenth, a
  maximum taken once more against minus infinity — hold at the infinities too.
-/
import proofs.«167485_j4939212390857_2_alg».proof.Defs
import proofs.«167485_j4939212390857_2_alg».proof.Proof.Gen.Kernel.Frame
import proofs.«167485_j4939212390857_2_alg».proof.Proof.Gen.Pre_finite_inputs
import proofs.«167485_j4939212390857_2_alg».proof.Proof.KernelRun
import proofs.«167485_j4939212390857_2_alg».proof.Proof.RefRun
import proofs.«167485_j4939212390857_2_alg».proof.Proof.RefValue
import proofs.«167485_j4939212390857_2_alg».proof.Proof.MaskBridge

set_option maxRecDepth 16384

noncomputable section

namespace Cert.Proof.Bridge

open Idealize.ShloMosaic Idealize.ShloMosaic.TcCoe Idealize.SL.Sem

/-- The reference run's name for its first result is the composed stage. -/
theorem res55_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v55 m c
      = Cert.ReferenceIdeal.ReadP.val_main_v55 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) := by
  unfold Cert.ReferenceIdeal.ValueP.res_main_v55; rfl

/-- And its name for the second. -/
theorem res52_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v52 m c
      = Cert.ReferenceIdeal.ReadP.val_main_v52 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg2)) := by
  unfold Cert.ReferenceIdeal.ValueP.res_main_v52; rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- From memories agreeing on the four arguments both idealized programs run, and end with the same two results. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · have hmask : Cert.KernelIdeal.Whole.maskK m c = Cert.ReferenceIdeal.RefValue.maskR := Cert.MaskBridge.mask_eq m c
    rw [res55_eq, Cert.ReferenceIdeal.RefValue.ref_merged, (hagree c).1, (hagree c).2.1, (hagree c).2.2.1, (hagree c).2.2.2, hmask]
    rfl
  · have hmask : Cert.KernelIdeal.Whole.maskK m c = Cert.ReferenceIdeal.RefValue.maskR := Cert.MaskBridge.mask_eq m c
    rw [res52_eq, Cert.ReferenceIdeal.RefValue.ref_probs, (hagree c).1, (hagree c).2.2.1, hmask]
    rfl

end Cert.Proof.Bridge

end
-- ==== Proof.lean ====
/-
  Spatial-memory attention: a kernel over blocks of eight batches against its plain reference.

  For each of 512 batches the program forms the scores of 225 memory centers against 225 query positions,
  (m_in · q_in) / 16, multiplies them by a fixed 225 × 225 spatial decay mask 0.92^|dx| · 0.92^|dy|, takes the softmax
  over the centers, and returns those probabilities together with the values m_out attended by them, joined with
  q_out along the channel axis and regrouped to 15 × 15.

  The kernel handles eight batches per grid point; each entry of a batch depends on that batch's rows of the inputs
  only, so what a point writes back is a block of one whole-array function, and the 64 blocks tile the batch axis.
  Read at the ideal values both programs compute that same function: the kernel's product with 1/16 is the reference's
  quotient by 16 on every extended real, its bf16 roundings are the identity, its matrix products into a zero
  accumulator and its reductions are the plain sums and the fold of `max`, and the reference's one extra maximum
  against minus infinity changes nothing. The mask is built on the host by the same operations in both programs. No
  step needs the inputs to be finite.

  The frames of the two kernel programs are the generated frame certificates; the reference's frame is its run; the
  idealization rewrote nothing, so `preserves` is trivial; `algebraic` is Proof/Bridge.lean.
-/
import proofs.«167485_j4939212390857_2_alg».proof.Defs
import proofs.«167485_j4939212390857_2_alg».proof.Proof.Gen.Kernel
import proofs.«167485_j4939212390857_2_alg».proof.Proof.Gen.Kernel.Skeleton
import proofs.«167485_j4939212390857_2_alg».proof.Proof.Gen.Kernel.Launch
import proofs.«167485_j4939212390857_2_alg».proof.Proof.Gen.Kernel.Points
import proofs.«167485_j4939212390857_2_alg».proof.Proof.Gen.Kernel.Frame
import proofs.«167485_j4939212390857_2_alg».proof.Proof.Gen.KernelIdeal
import proofs.«167485_j4939212390857_2_alg».proof.Proof.Gen.KernelIdeal.Skeleton
import proofs.«167485_j4939212390857_2_alg».proof.Proof.Gen.KernelIdeal.Launch
import proofs.«167485_j4939212390857_2_alg».proof.Proof.Gen.KernelIdeal.Points
import proofs.«167485_j4939212390857_2_alg».proof.Proof.Gen.KernelIdeal.Frame
import proofs.«167485_j4939212390857_2_alg».proof.Proof.Gen.ReferenceIdeal
import proofs.«167485_j4939212390857_2_alg».proof.Proof.Gen.Pre_finite_inputs
import proofs.«167485_j4939212390857_2_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Bridge.frame_k, Cert.Proof.Bridge.frame_ki, Cert.Proof.Bridge.frame_ri, trivial, Cert.Proof.Bridge.algebraic⟩

end Cert.Proof

end
